-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x10 .f32) (main_arg15 : FVec F S10 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x10 .f32 := Host.absf main_arg14
  let main_cst_22 : FVec F S_ .f32 := constant S_ .f32 0x7F800000#32
  let main_v60 : FVec F S32x10 .f32 := broadcastInDim S32x10 ![] bcast_S_S32x10 main_cst_22
  let main_v61 : IVec S32x10 1 := cmpf .olt main_v59 main_v60
  let main_c_23 : IVec S_ 1 := constantI S_ 1 1#1
  let main_v62 : IVec S_ 1 := (fun x v => Host.reduce IntOp.andi x v reducesTo_S32x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S256 .f32) (main_arg7 : FVec F S256x128 .f32) (main_arg8 : FVec F S256x128 .f32) (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S800000 32) (main_arg2 : IVec S800000 32) (main_arg3 : FVec F S800000 .f32) (main_arg4 : FVec F S64x256 .f32) (main_arg5 : FVec F S64x256 .f32) (main_arg6 : FVec F S256 .f32) (main_arg7 : FVec F S256x128 .f32) (main_arg8 : FVec F S256x128 .f32) (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x256 : Shape := ⟨2, ![1, 256]⟩
abbrev S50000x1 : Shape := ⟨2, ![50000, 1]⟩
abbrev S50000x256 : Shape := ⟨2, ![50000, 256]⟩
abbrev S50000x128 : Shape := ⟨2, ![50000, 128]⟩
abbrev S2000x64 : Shape := ⟨2, ![2000, 64]⟩
abbrev S2000x1 : Shape := ⟨2, ![2000, 1]⟩
abbrev S2000x256 : Shape := ⟨2, ![2000, 256]⟩
abbrev S2000x128 : Shape := ⟨2, ![2000, 128]⟩
abbrev S800000x128 : Shape := ⟨2, ![800000, 128]⟩
abbrev S32x128 : Shape := ⟨2, ![32, 128]⟩
abbrev S1x10 : Shape := ⟨2, ![1, 10]⟩
abbrev S1x128 : Shape := ⟨2, ![1, 128]⟩
abbrev S1x64 : Shape := ⟨2, ![1, 64]⟩
abbrev S1x32 : Shape := ⟨2, ![1, 32]⟩
abbrev S2000x32 : Shape := ⟨2, ![2000, 32]⟩
abbrev S50000x10 : Shape := ⟨2, ![50000, 10]⟩

abbrev nBuf : Space → Nat
  | .hbm => 79
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x256, .f32⟩
  | .hbm, ⟨5, _⟩ => ⟨S64x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x10, .f32⟩
  | .hbm, ⟨15, _⟩ => ⟨S10, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x1, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S1x256, .f32⟩
  | .hbm, ⟨46, _⟩ => ⟨S50000x1, .f32⟩
  | .hbm, ⟨47, _⟩ => ⟨S50000x256, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .i32⟩
  | .hbm, ⟨66, _⟩ => ⟨S_, .f32⟩
  | .hbm, ⟨67, _⟩ => ⟨S32x128, .f32⟩
  | .hbm, ⟨68, _⟩ => ⟨S1x10, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x64, .f32⟩
  | .hbm, ⟨74, _⟩ => ⟨S1x32, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x10, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x256, .f32⟩
  | .local _ .vmem, ⟨7, _⟩ => ⟨S64x256, .f32⟩
  | .local _ .vmem, ⟨8, _⟩ => ⟨S1x256, .f32⟩
  | .local _ .vmem, ⟨9, _⟩ => ⟨S256x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S256x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S64x32, .f32⟩
  | .local _ .vmem, ⟨25, _⟩ => ⟨S1x32, .f32⟩
  | .local _ .vmem, ⟨26, _⟩ => ⟨S32x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_8 : Ref sig .tc := ⟨.hbm, 65, rfl⟩
abbrev main_call1_v0 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_call2_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43_0 : Ref sig .tc := ⟨.hbm, 76, rfl⟩
abbrev main_v43_1 : Ref sig .tc := ⟨.hbm, 77, rfl⟩
abbrev main_v44 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S256_S1x256 : S256.ShapeCasts S1x256
  shapeCasts_S50000_S50000x1 : S50000.ShapeCasts S50000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  pads_S32x10_S32x128_000_01180 : S32x10.Pads (![0, 0] : Fin 2 → Nat) ![0, 118] ![0, 0] S32x128
  h_S_ : 0 < S_.numel
  shapeCasts_S10_S1x10 : S10.ShapeCasts S1x10
  pads_S1x10_S1x128_000_01180 : S1x10.Pads (![0, 0] : Fin 2 → Nat) ![0, 118] ![0, 0] S1x128
  shapeCasts_S128_S1x128 : S128.ShapeCasts S1x128
  shapeCasts_S64_S1x64 : S64.ShapeCasts S1x64
  shapeCasts_S32_S1x32 : S32.ShapeCasts S1x32
  shapeCasts_S2000x256_S2000x256 : S2000x256.ShapeCasts S2000x256
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S50000x128_S50000x10_0_0 : S50000x128.Slices ![0, 0] S50000x10
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x128_S2000x128_1_0_0_1_n_n_wf : DotDims.WF S2000x32 S32x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x128.size a ≤ S32x128.size a
  hwx1_9 : ∀ i : grid1.Coords, EltTy.bits .f32 = 32 ∨ (Rect.block (s := S32x128) S32x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S32x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v43_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v43_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S1x64 : Shape := ⟨2, ![1, 64]⟩
abbrev S50000x32 : Shape := ⟨2, ![50000, 32]⟩
abbrev S1x32 : Shape := ⟨2, ![1, 32]⟩
abbrev S50000x10 : Shape := ⟨2, ![50000, 10]⟩
abbrev S1x10 : Shape := ⟨2, ![1, 10]⟩

abbrev nBuf : Space → Nat
  | .hbm => 107
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x256, .f32⟩
  | .hbm, ⟨5, _⟩ => ⟨S64x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x10, .f32⟩
  | .hbm, ⟨15, _⟩ => ⟨S10, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x1, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S800000x1, .f32⟩
  | .hbm, ⟨64, _⟩ => ⟨S800000x256, .f32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x32, .f32⟩
  | .hbm, ⟨97, _⟩ => ⟨S1x32, .f32⟩
  | .hbm, ⟨98, _⟩ => ⟨S50000x32, .f32⟩
  | .hbm, ⟨99, _⟩ => ⟨S50000x32, .f32⟩
  | .hbm, ⟨100, _⟩ => ⟨S_, .f32⟩
  | .hbm, ⟨101, _⟩ => ⟨S50000x32, .f32⟩
  | .hbm, ⟨102, _⟩ => ⟨S50000x32, .f32⟩
  | .hbm, ⟨103, _⟩ => ⟨S50000x10, .f32⟩
  | .hbm, ⟨104, _⟩ => ⟨S1x10, .f32⟩
  | .hbm, ⟨105, _⟩ => ⟨S50000x10, .f32⟩
  | .hbm, ⟨106, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x10_S50000x10_1_0_0_1_n_n_wf : DotDims.WF S50000x32 S32x10 S50000x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x10_S50000x10_1_0_0_1_n_n : DotDims S50000x32 S32x10 S50000x10 where
  lhsContracting := [1]
  rhsContracting := [0]
  lhsNonContracting := [0]
  rhsNonContracting := [1]
  lhsBatch := []
  rhsBatch := []
  wf := dot_S50000x32_S32x10_S50000x10_1_0_0_1_n_n_wf

class Facts : Prop extends Facts₀ where

variable [Facts]
-- ==== Proof.KernelRun.lean ====
/-
  The idealized kernel's run, with its two results named.

  @main is eleven segments. Host operations compute the reciprocal of the clipped in-degree and the layer-1 aggregated
  messages; the first kernel, over 25 row blocks of 2000 nodes, writes the layer-1 activations and their projection;
  host operations aggregate the projected rows along the edges and pad the last dense layer to 128 columns; the second
  kernel writes the embeddings and the padded logits; a slice keeps the first ten columns. `W0 … W11` are the buffer
  contents at the segment boundaries, each obtained from the previous one by the segment's operations (a kernel's
  arrays at what its blocks' write-backs leave). Every weakly fair execution of @main terminates with the logits at
  `W11 … main_v44`, the embeddings at `W11 … main_v43_0` and the argument arrays unchanged.
-/
import proofs.«160259_j20469814132750_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the logits and the embeddings at the last
    boundary's contents `W11` and every argument array as launched. -/
theorem run : θ_run defs (onTc (τ := τ) (main (F := F))) ⟨m, fun _ => 0, ρ⟩ (fun r => ∀ c : Dev nD,
      r.2.mem ((c.tc : Thread nD τ).loc main_v44) = W11 m ρ c (Proc.devRef .tc main_v44)
      ∧ r.2.mem ((c.tc : Thread nD τ).loc main_v43_0) = W11 m ρ c (Proc.devRef .tc main_v43_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v44 (by decide)),
       h c _ (mem_uc main_v43_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.Results

end
-- ==== Proof.EntryOne.lean ====
/-
  What the first kernel finds in its operands' arrays.

  Before the first kernel @main computes, from the arguments alone: the in-degree of every node as a sum of ones
  over the edges that end there; its clip from below at one; the reciprocal of the clipped degree; and the layer-1
  aggregated messages, row `v` being the sum over the edges ending at `v` of the source node's feature row times the
  edge's weight. The reference computes the clipped degree and the aggregated messages by the same operations on the
  same arguments, so the kernel's arrays are named here by the reference's own stages of the arguments
  (`val_main_v17`, `val_main_v12`); the bias is read as a [1, 256] row and the reciprocal as a [50000, 1] column.
  The argument arrays themselves are written by no operation and hold their launch contents throughout.
-/
import proofs.«160259_j20469814132750_2_alg».proof.Proof.Gen.KernelIdeal.Frame
import proofs.«160259_j20469814132750_2_alg».proof.Proof.Gen.ReferenceIdeal.Read
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

/-- A buffer that no operation of a stretch writes keeps its contents across the stretch. -/
macro "unwritten" : tactic => `(tactic|
  (refine StableHlo.after_of_forall_not_mem _ _ (List.forall_iff_forall_mem.mp ?_)
   simp only [hostOps0, hostOps0_1, hostOps0_2, hostOps1, hostOps1_1, hostOps1_2, hostOps1_3, hostOps1_4, hostOps2,
     List.Forall, StableHlo.nullary_writes, StableHlo.unary_writes, StableHlo.binary_writes, StableHlo.ternary_writes,
     StableHlo.quaternary_writes, StableHlo.reshape_writes, Finset.mem_singleton]
   repeat' apply And.intro
   all_goals exact StableHlo.devRef_ne_of_ne (by decide)))

/-! ## One stretch at a time, from any contents `V` -/

section Stretches
variable (V : Valuation τ sig (Elt Ideal))

/-- The in-degree: ones scattered, with addition, onto zeros at the destination words. -/
theorem s0_v3 : StableHlo.after (hostOps0 (F := Ideal)) V (Proc.devRef .tc main_v3)
    = Cert.ReferenceIdeal.Read.val_main_v16 (F := Ideal) (V (Proc.devRef .tc main_arg2)) := by
  dsimp only [hostOps0]
  after_results_simp
  rfl

theorem s0_cst1 : StableHlo.after (hostOps0 (F := Ideal)) V (Proc.devRef .tc main_cst_1)
    = constant (F := Ideal) S_ .f32 0x3F800000#32 := by
  dsimp only [hostOps0]
  after_results_simp

/-- The clip as the reference spells it: the larger of one and the degree. -/
theorem clip_eq (x2 : (⟨S800000, .i32⟩ : BufTy).Contents (Elt Ideal)) :
    (maximumf (F := Ideal) (φ := .f32) (broadcastInDim S50000 ![] bcast_S_S50000 (constant (F := Ideal) S_ .f32 0x3F800000#32))
        (Cert.ReferenceIdeal.Read.val_main_v16 (F := Ideal) x2) : (⟨S50000, .f32⟩ : BufTy).Contents (Elt Ideal))
      = Cert.ReferenceIdeal.Read.val_main_v17 (F := Ideal) x2 := rfl

/-- The clip: the larger of one and the degree. -/
theorem s01_v4 (x2 : (⟨S800000, .i32⟩ : BufTy).Contents (Elt Ideal))
    (h1 : V (Proc.devRef .tc main_cst_1) = constant (F := Ideal) S_ .f32 0x3F800000#32)
    (h3 : V (Proc.devRef .tc main_v3) = Cert.ReferenceIdeal.Read.val_main_v16 (F := Ideal) x2) :
    StableHlo.after (hostOps0_1 (F := Ideal)) V (Proc.devRef .tc main_v4)
      = Cert.ReferenceIdeal.Read.val_main_v17 (F := Ideal) x2 := by
  dsimp only [hostOps0_1]
  after_results_simp
  refine Eq.trans (b := (maximumf (F := Ideal) (φ := .f32) (broadcastInDim S50000 ![] bcast_S_S50000
            (V (Proc.devRef .tc main_cst_1) : (⟨S_, .f32⟩ : BufTy).Contents (Elt Ideal)))
          (V (Proc.devRef .tc main_v3) : (⟨S50000, .f32⟩ : BufTy).Contents (Elt Ideal)) : (⟨S50000, .f32⟩ : BufTy).Contents (Elt Ideal))) rfl ?_
  rw [h1, h3]
  exact clip_eq x2

/-- The reciprocal of the clipped degree. -/
theorem s02_v6 : StableHlo.after (hostOps0_2 (F := Ideal)) V (Proc.devRef .tc main_v6)
    = Host.divf (F := Ideal) (broadcastInDim S50000 ![] bcast_S_S50000 (constant (F := Ideal) S_ .f32 0x3F800000#32))
        (V (Proc.devRef .tc main_v4)) := by
  dsimp only [hostOps0_2]
  after_results_simp

/-- The layer-1 aggregated messages. -/
theorem s02_v19 : StableHlo.after (hostOps0_2 (F := Ideal)) V (Proc.devRef .tc main_v19)
    = Cert.ReferenceIdeal.Read.val_main_v12 (F := Ideal) (V (Proc.devRef .tc main_arg0)) (V (Proc.devRef .tc main_arg1))
        (V (Proc.devRef .tc main_arg2)) (V (Proc.devRef .tc main_arg3)) := by
  dsimp only [hostOps0_2]
  after_results_simp
  rfl

/-- The bias as a row. -/
theorem s02_v20 : StableHlo.after (hostOps0_2 (F := Ideal)) V (Proc.devRef .tc main_v20)
    = shapeCast S1x256 (V (Proc.devRef .tc main_arg6)) shapeCasts_S256_S1x256 := by
  dsimp only [hostOps0_2]
  after_results_simp
  rfl

/-- The reciprocal as a column. -/
theorem s02_v21 : StableHlo.after (hostOps0_2 (F := Ideal)) V (Proc.devRef .tc main_v21)
    = shapeCast S50000x1 (Host.divf (F := Ideal) (broadcastInDim S50000 ![] bcast_S_S50000 (constant (F := Ideal) S_ .f32 0x3F800000#32))
        (V (Proc.devRef .tc main_v4))) shapeCasts_S50000_S50000x1 := by
  dsimp only [hostOps0_2]
  after_results_simp
  rfl

end Stretches

/-! ## At the first kernel's entry -/

variable (m : (ℓ : Loc nD τ sig) → Buf (Elt Ideal) ℓ) (ρ : Dev nD → PrngReg) (c : Dev nD)

/-- A buffer none of the three leading stretches writes holds its launch contents at the first kernel's entry. -/
theorem W3_pass (b : Ref sig .tc)
    (h0 : ∀ V : Valuation τ sig (Elt Ideal), StableHlo.after (hostOps0 (F := Ideal)) V (Proc.devRef .tc b) = V (Proc.devRef .tc b))
    (h1 : ∀ V : Valuation τ sig (Elt Ideal), StableHlo.after (hostOps0_1 (F := Ideal)) V (Proc.devRef .tc b) = V (Proc.devRef .tc b))
    (h2 : ∀ V : Valuation τ sig (Elt Ideal), StableHlo.after (hostOps0_2 (F := Ideal)) V (Proc.devRef .tc b) = V (Proc.devRef .tc b)) :
    W3 m ρ c (Proc.devRef .tc b) = m ((c : Thread nD τ).loc b) :=
  (h2 (W2 m ρ c)).trans ((h1 (W1 m ρ c)).trans (h0 (W0 m ρ c)))

theorem W2_pass (b : Ref sig .tc)
    (h0 : ∀ V : Valuation τ sig (Elt Ideal), StableHlo.after (hostOps0 (F := Ideal)) V (Proc.devRef .tc b) = V (Proc.devRef .tc b))
    (h1 : ∀ V : Valuation τ sig (Elt Ideal), StableHlo.after (hostOps0_1 (F := Ideal)) V (Proc.devRef .tc b) = V (Proc.devRef .tc b)) :
    W2 m ρ c (Proc.devRef .tc b) = m ((c : Thread nD τ).loc b) :=
  (h1 (W1 m ρ c)).trans (h0 (W0 m ρ c))

theorem W3_arg0 : W3 m ρ c (Proc.devRef .tc main_arg0) = m ((c : Thread nD τ).loc main_arg0) :=
  W3_pass m ρ c main_arg0 (fun V => by unwritten) (fun V => by unwritten) (fun V => by unwritten)
theorem W3_arg1 : W3 m ρ c (Proc.devRef .tc main_arg1) = m ((c : Thread nD τ).loc main_arg1) :=
  W3_pass m ρ c main_arg1 (fun V => by unwritten) (fun V => by unwritten) (fun V => by unwritten)
theorem W3_arg2 : W3 m ρ c (Proc.devRef .tc main_arg2) = m ((c : Thread nD τ).loc main_arg2) :=
  W3_pass m ρ c main_arg2 (fun V => by unwritten) (fun V => by unwritten) (fun V => by unwritten)
theorem W3_arg3 : W3 m ρ c (Proc.devRef .tc main_arg3) = m ((c : Thread nD τ).loc main_arg3) :=
  W3_pass m ρ c main_arg3 (fun V => by unwritten) (fun V => by unwritten) (fun V => by unwritten)
theorem W3_arg4 : W3 m ρ c (Proc.devRef .tc main_arg4) = m ((c : Thread nD τ).loc main_arg4) :=
  W3_pass m ρ c main_arg4 (fun V => by unwritten) (fun V => by unwritten) (fun V => by unwritten)
theorem W3_arg5 : W3 m ρ c (Proc.devRef .tc main_arg5) = m ((c : Thread nD τ).loc main_arg5) :=
  W3_pass m ρ c main_arg5 (fun V => by unwritten) (fun V => by unwritten) (fun V => by unwritten)
theorem W3_arg6 : W3 m ρ c (Proc.devRef .tc main_arg6) = m ((c : Thread nD τ).loc main_arg6) :=
  W3_pass m ρ c main_arg6 (fun V => by unwritten) (fun V => by unwritten) (fun V => by unwritten)
theorem W3_arg7 : W3 m ρ c (Proc.devRef .tc main_arg7) = m ((c : Thread nD τ).loc main_arg7) :=
  W3_pass m ρ c main_arg7 (fun V => by unwritten) (fun V => by unwritten) (fun V => by unwritten)
theorem W3_arg8 : W3 m ρ c (Proc.devRef .tc main_arg8) = m ((c : Thread nD τ).loc main_arg8) :=
  W3_pass m ρ c main_arg8 (fun V => by unwritten) (fun V => by unwritten) (fun V => by unwritten)
theorem W3_arg9 : W3 m ρ c (Proc.devRef .tc main_arg9) = m ((c : Thread nD τ).loc main_arg9) :=
  W3_pass m ρ c main_arg9 (fun V => by unwritten) (fun V => by unwritten) (fun V => by unwritten)
theorem W3_arg10 : W3 m ρ c (Proc.devRef .tc main_arg10) = m ((c : Thread nD τ).loc main_arg10) :=
  W3_pass m ρ c main_arg10 (fun V => by unwritten) (fun V => by unwritten) (fun V => by unwritten)
theorem W3_arg11 : W3 m ρ c (Proc.devRef .tc main_arg11) = m ((c : Thread nD τ).loc main_arg11) :=
  W3_pass m ρ c main_arg11 (fun V => by unwritten) (fun V => by unwritten) (fun V => by unwritten)
theorem W3_arg12 : W3 m ρ c (Proc.devRef .tc main_arg12) = m ((c : Thread nD τ).loc main_arg12) :=
  W3_pass m ρ c main_arg12 (fun V => by unwritten) (fun V => by unwritten) (fun V => by unwritten)
theorem W3_arg13 : W3 m ρ c (Proc.devRef .tc main_arg13) = m ((c : Thread nD τ).loc main_arg13) :=
  W3_pass m ρ c main_arg13 (fun V => by unwritten) (fun V => by unwritten) (fun V => by unwritten)
theorem W3_arg14 : W3 m ρ c (Proc.devRef .tc main_arg14) = m ((c : Thread nD τ).loc main_arg14) :=
  W3_pass m ρ c main_arg14 (fun V => by unwritten) (fun V => by unwritten) (fun V => by unwritten)
theorem W3_arg15 : W3 m ρ c (Proc.devRef .tc main_arg15) = m ((c : Thread nD τ).loc main_arg15) :=
  W3_pass m ρ c main_arg15 (fun V => by unwritten) (fun V => by unwritten) (fun V => by unwritten)
theorem W2_arg0 : W2 m ρ c (Proc.devRef .tc main_arg0) = m ((c : Thread nD τ).loc main_arg0) :=
  W2_pass m ρ c main_arg0 (fun V => by unwritten) (fun V => by unwritten)
theorem W2_arg1 : W2 m ρ c (Proc.devRef .tc main_arg1) = m ((c : Thread nD τ).loc main_arg1) :=
  W2_pass m ρ c main_arg1 (fun V => by unwritten) (fun V => by unwritten)
theorem W2_arg2 : W2 m ρ c (Proc.devRef .tc main_arg2) = m ((c : Thread nD τ).loc main_arg2) :=
  W2_pass m ρ c main_arg2 (fun V => by unwritten) (fun V => by unwritten)
theorem W2_arg3 : W2 m ρ c (Proc.devRef .tc main_arg3) = m ((c : Thread nD τ).loc main_arg3) :=
  W2_pass m ρ c main_arg3 (fun V => by unwritten) (fun V => by unwritten)
theorem W2_arg6 : W2 m ρ c (Proc.devRef .tc main_arg6) = m ((c : Thread nD τ).loc main_arg6) :=
  W2_pass m ρ c main_arg6 (fun V => by unwritten) (fun V => by unwritten)

/-- The clipped in-degree, after the second stretch. -/
theorem W2_v4 : W2 m ρ c (Proc.devRef .tc main_v4)
    = Cert.ReferenceIdeal.Read.val_main_v17 (F := Ideal) (m ((c : Thread nD τ).loc main_arg2)) :=
  s01_v4 (W1 m ρ c) (m ((c : Thread nD τ).loc main_arg2)) (s0_cst1 (W0 m ρ c)) (s0_v3 (W0 m ρ c))

/-- The reciprocal of the clipped in-degree, at the first kernel's entry. -/
theorem W3_v6 : W3 m ρ c (Proc.devRef .tc main_v6)
    = Host.divf (F := Ideal) (broadcastInDim S50000 ![] bcast_S_S50000 (constant (F := Ideal) S_ .f32 0x3F800000#32))
        (Cert.ReferenceIdeal.Read.val_main_v17 (F := Ideal) (m ((c : Thread nD τ).loc main_arg2))) :=
  (s02_v6 (W2 m ρ c)).trans (by rw [W2_v4])

theorem W3_v21 : W3 m ρ c (Proc.devRef .tc main_v21)
    = shapeCast S50000x1 (Host.divf (F := Ideal) (broadcastInDim S50000 ![] bcast_S_S50000 (constant (F := Ideal) S_ .f32 0x3F800000#32))
        (Cert.ReferenceIdeal.Read.val_main_v17 (F := Ideal) (m ((c : Thread nD τ).loc main_arg2)))) shapeCasts_S50000_S50000x1 :=
  (s02_v21 (W2 m ρ c)).trans (by rw [W2_v4])

theorem W3_v19 : W3 m ρ c (Proc.devRef .tc main_v19)
    = Cert.ReferenceIdeal.Read.val_main_v12 (F := Ideal) (m ((c : Thread nD τ).loc main_arg0)) (m ((c : Thread nD τ).loc main_arg1))
        (m ((c : Thread nD τ).loc main_arg2)) (m ((c : Thread nD τ).loc main_arg3)) :=
  (s02_v19 (W2 m ρ c)).trans (by rw [W2_arg0, W2_arg1, W2_arg2, W2_arg3])

theorem W3_v20 : W3 m ρ c (Proc.devRef .tc main_v20)
    = shapeCast S1x256 (m ((c : Thread nD τ).loc main_arg6)) shapeCasts_S256_S1x256 :=
  (s02_v20 (W2 m ρ c)).trans (by rw [W2_arg6])

end Cert.KernelIdeal.Entry

end
-- ==== Proof.EntryTwo.lean ====
/-
  What the second kernel finds in its operands' arrays, and what @main returns.

  Between the two kernels @main aggregates the first kernel's PROJECTED rows along the edges — row `v` of the result
  is the sum, over the edges ending at `v`, of the source node's projected row times the edge's weight —, pads the last
  dense layer's matrix and bias with 118 zero columns, and reads the remaining biases as rows and the reciprocal of the
  clipped in-degree as a column. The first kernel's two arrays hold what its blocks' write-backs left. After the second
  kernel the embeddings are its first array and the logits the first ten columns of its second.
-/
import proofs.«160259_j20469814132750_2_alg».proof.Proof.EntryOne

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

/-- The aggregation along the edges of a [50000, 128] array of rows: gather the source rows (a negative source word
    counts from the end), weigh each by its edge, and scatter with addition onto zeros at the destination words. -/
def aggProj (Zm : (⟨S50000x128, .f32⟩ : BufTy).Contents (Elt Ideal)) (a1 a2 : (⟨S800000, .i32⟩ : BufTy).Contents (Elt Ideal)) (a3 : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 a2)
    (mulf (F := Ideal) (Host.gather gather_S50000x128_S800000x1_S800000x128_1_0_n_n_0_1_1128 Zm
        (broadcastInDim S800000x1 ![0] bcast_S800000_S800000x1_0
          (select (cmpi .slt a1 (broadcastInDim S800000 ![] bcast_S_S800000 (constantI S_ 32 0#32)))
            (addi a1 (broadcastInDim S800000 ![] bcast_S_S800000 (constantI S_ 32 50000#32))) a1)))
      (broadcastInDim S800000x128 ![0, 1] bcast_S800000x1_S800000x128_0_1
        (broadcastInDim S800000x1 ![0] bcast_S800000_S800000x1_0 a3)))

/-! ## One stretch at a time, from any contents `V` -/

section Stretches
variable (V : Valuation τ sig (Elt Ideal))

theorem s1_v35 : StableHlo.after (hostOps1 (F := Ideal)) V (Proc.devRef .tc main_v35)
    = aggProj (V (Proc.devRef .tc main_v22_1)) (V (Proc.devRef .tc main_arg1)) (V (Proc.devRef .tc main_arg2)) (V (Proc.devRef .tc main_arg3)) := by
  dsimp only [hostOps1]
  after_results_simp
  rfl

/-- The last layer's matrix, padded on the right. -/
theorem s11_v36 : StableHlo.after (hostOps1_1 (F := Ideal)) V (Proc.devRef .tc main_v36)
    = (pad S32x128 ![0, 0] ![0, 118] ![0, 0] (V (Proc.devRef .tc main_arg14) : (⟨S32x10, .f32⟩ : BufTy).Contents (Elt Ideal))
        (sitofp (F := Ideal) .f32 (V (Proc.devRef .tc main_c_8) : (⟨S_, .i32⟩ : BufTy).Contents (Elt Ideal))) pads_S32x10_S32x128_000_01180 h_S_ : (⟨S32x128, .f32⟩ : BufTy).Contents (Elt Ideal)) := by
  dsimp only [hostOps1_1]
  after_results_simp
  rfl

theorem s12_v37 : StableHlo.after (hostOps1_2 (F := Ideal)) V (Proc.devRef .tc main_v37)
    = shapeCast S1x10 (V (Proc.devRef .tc main_arg15)) shapeCasts_S10_S1x10 := by
  dsimp only [hostOps1_2]
  after_results_simp
  rfl

/-- The last layer's bias, as a row, padded on the right. -/
theorem s13_v38 : StableHlo.after (hostOps1_3 (F := Ideal)) V (Proc.devRef .tc main_v38)
    = (pad S1x128 ![0, 0] ![0, 118] ![0, 0] (V (Proc.devRef .tc main_v37) : (⟨S1x10, .f32⟩ : BufTy).Contents (Elt Ideal))
        (sitofp (F := Ideal) .f32 (V (Proc.devRef .tc main_c_9) : (⟨S_, .i32⟩ : BufTy).Contents (Elt Ideal))) pads_S1x10_S1x128_000_01180 h_S_ : (⟨S1x128, .f32⟩ : BufTy).Contents (Elt Ideal)) := by
  dsimp only [hostOps1_3]
  after_results_simp
  rfl

theorem s14_v39 : StableHlo.after (hostOps1_4 (F := Ideal)) V (Proc.devRef .tc main_v39)
    = shapeCast S1x128 (V (Proc.devRef .tc main_arg9)) shapeCasts_S128_S1x128 := by
  dsimp only [hostOps1_4]
  after_results_simp
  rfl
theorem s14_v40 : StableHlo.after (hostOps1_4 (F := Ideal)) V (Proc.devRef .tc main_v40)
    = shapeCast S1x64 (V (Proc.devRef .tc main_arg11)) shapeCasts_S64_S1x64 := by
  dsimp only [hostOps1_4]
  after_results_simp
  rfl
theorem s14_v41 : StableHlo.after (hostOps1_4 (F := Ideal)) V (Proc.devRef .tc main_v41)
    = shapeCast S1x32 (V (Proc.devRef .tc main_arg13)) shapeCasts_S32_S1x32 := by
  dsimp only [hostOps1_4]
  after_results_simp
  rfl
theorem s14_v42 : StableHlo.after (hostOps1_4 (F := Ideal)) V (Proc.devRef .tc main_v42)
    = shapeCast S50000x1 (V (Proc.devRef .tc main_v6)) shapeCasts_S50000_S50000x1 := by
  dsimp only [hostOps1_4]
  after_results_simp
  rfl

/-- The logits: the first ten columns. -/
theorem s2_v44 : StableHlo.after (hostOps2 (F := Ideal)) V (Proc.devRef .tc main_v44)
    = extractStridedSlice S50000x10 ![0, 0] (V (Proc.devRef .tc main_v43_1)) slices_S50000x128_S50000x10_0_0 := by
  dsimp only [hostOps2]
  after_results_simp

end Stretches

/-! ## Across the middle stretches -/

variable (m : (ℓ : Loc nD τ sig) → Buf (Elt Ideal) ℓ) (ρ : Dev nD → PrngReg) (c : Dev nD)

/-- A buffer that is not one of the first kernel's arrays is not changed by it. -/
theorem W4_old (b : Ref sig .tc) (hne : ∀ w, Pipeline.arrRef spec0 w ≠ b) :
    W4 m ρ c (Proc.devRef .tc b) = W3 m ρ c (Proc.devRef .tc b) := W4_of_ne m ρ c b hne

theorem W5_from4 (b : Ref sig .tc) (g0 : ∀ V : Valuation τ sig (Elt Ideal), StableHlo.after (hostOps1 (F := Ideal)) V (Proc.devRef .tc b) = V (Proc.devRef .tc b)) : W5 m ρ c (Proc.devRef .tc b) = W4 m ρ c (Proc.devRef .tc b) := g0 (W4 m ρ c)
theorem W6_from4 (b : Ref sig .tc) (g0 : ∀ V : Valuation τ sig (Elt Ideal), StableHlo.after (hostOps1 (F := Ideal)) V (Proc.devRef .tc b) = V (Proc.devRef .tc b)) (g1 : ∀ V : Valuation τ sig (Elt Ideal), StableHlo.after (hostOps1_1 (F := Ideal)) V (Proc.devRef .tc b) = V (Proc.devRef .tc b)) : W6 m ρ c (Proc.devRef .tc b) = W4 m ρ c (Proc.devRef .tc b) :=
  (g1 (W5 m ρ c)).trans (g0 (W4 m ρ c))
theorem W8_from4 (b : Ref sig .tc) (g0 : ∀ V : Valuation τ sig (Elt Ideal), StableHlo.after (hostOps1 (F := Ideal)) V (Proc.devRef .tc b) = V (Proc.devRef .tc b)) (g1 : ∀ V : Valuation τ sig (Elt Ideal), StableHlo.after (hostOps1_1 (F := Ideal)) V (Proc.devRef .tc b) = V (Proc.devRef .tc b)) (g2 : ∀ V : Valuation τ sig (Elt Ideal), StableHlo.after (hostOps1_2 (F := Ideal)) V (Proc.devRef .tc b) = V (Proc.devRef .tc b)) (g3 : ∀ V : Valuation τ sig (Elt Ideal), StableHlo.after (hostOps1_3 (F := Ideal)) V (Proc.devRef .tc b) = V (Proc.devRef .tc b)) : W8 m ρ c (Proc.devRef .tc b) = W4 m ρ c (Proc.devRef .tc b) :=
  (g3 (W7 m ρ c)).trans ((g2 (W6 m ρ c)).trans ((g1 (W5 m ρ c)).trans (g0 (W4 m ρ c))))
theorem W9_from4 (b : Ref sig .tc) (g0 : ∀ V : Valuation τ sig (Elt Ideal), StableHlo.after (hostOps1 (F := Ideal)) V (Proc.devRef .tc b) = V (Proc.devRef .tc b)) (g1 : ∀ V : Valuation τ sig (Elt Ideal), StableHlo.after (hostOps1_1 (F := Ideal)) V (Proc.devRef .tc b) = V (Proc.devRef .tc b)) (g2 : ∀ V : Valuation τ sig (Elt Ideal), StableHlo.after (hostOps1_2 (F := Ideal)) V (Proc.devRef .tc b) = V (Proc.devRef .tc b)) (g3 : ∀ V : Valuation τ sig (Elt Ideal), StableHlo.after (hostOps1_3 (F := Ideal)) V (Proc.devRef .tc b) = V (Proc.devRef .tc b)) (g4 : ∀ V : Valuation τ sig (Elt Ideal), StableHlo.after (hostOps1_4 (F := Ideal)) V (Proc.devRef .tc b) = V (Proc.devRef .tc b)) : W9 m ρ c (Proc.devRef .tc b) = W4 m ρ c (Proc.devRef .tc b) :=
  (g4 (W8 m ρ c)).trans ((g3 (W7 m ρ c)).trans ((g2 (W6 m ρ c)).trans ((g1 (W5 m ρ c)).trans (g0 (W4 m ρ c)))))
theorem W9_from5 (b : Ref sig .tc) (g1 : ∀ V : Valuation τ sig (Elt Ideal), StableHlo.after (hostOps1_1 (F := Ideal)) V (Proc.devRef .tc b) = V (Proc.devRef .tc b)) (g2 : ∀ V : Valuation τ sig (Elt Ideal), StableHlo.after (hostOps1_2 (F := Ideal)) V (Proc.devRef .tc b) = V (Proc.devRef .tc b)) (g3 : ∀ V : Valuation τ sig (Elt Ideal), StableHlo.after (hostOps1_3 (F := Ideal)) V (Proc.devRef .tc b) = V (Proc.devRef .tc b)) (g4 : ∀ V : Valuation τ sig (Elt Ideal), StableHlo.after (hostOps1_4 (F := Ideal)) V (Proc.devRef .tc b) = V (Proc.devRef .tc b)) : W9 m ρ c (Proc.devRef .tc b) = W5 m ρ c (Proc.devRef .tc b) :=
  (g4 (W8 m ρ c)).trans ((g3 (W7 m ρ c)).trans ((g2 (W6 m ρ c)).trans (g1 (W5 m ρ c))))
theorem W9_from6 (b : Ref sig .tc) (g2 : ∀ V : Valuation τ sig (Elt Ideal), StableHlo.after (hostOps1_2 (F := Ideal)) V (Proc.devRef .tc b) = V (Proc.devRef .tc b)) (g3 : ∀ V : Valuation τ sig (Elt Ideal), StableHlo.after (hostOps1_3 (F := Ideal)) V (Proc.devRef .tc b) = V (Proc.devRef .tc b)) (g4 : ∀ V : Valuation τ sig (Elt Ideal), StableHlo.after (hostOps1_4 (F := Ideal)) V (Proc.devRef .tc b) = V (Proc.devRef .tc b)) : W9 m ρ c (Proc.devRef .tc b) = W6 m ρ c (Proc.devRef .tc b) :=
  (g4 (W8 m ρ c)).trans ((g3 (W7 m ρ c)).trans (g2 (W6 m ρ c)))
theorem W9_from8 (b : Ref sig .tc) (g4 : ∀ V : Valuation τ sig (Elt Ideal), StableHlo.after (hostOps1_4 (F := Ideal)) V (Proc.devRef .tc b) = V (Proc.devRef .tc b)) : W9 m ρ c (Proc.devRef .tc b) = W8 m ρ c (Proc.devRef .tc b) := g4 (W8 m ρ c)

/-! ## At the second kernel's entry -/

theorem W4_arg1 : W4 m ρ c (Proc.devRef .tc main_arg1) = m ((c : Thread nD τ).loc main_arg1) :=
  (W4_old m ρ c main_arg1 (by decide)).trans (W3_arg1 m ρ c)
theorem W4_arg2 : W4 m ρ c (Proc.devRef .tc main_arg2) = m ((c : Thread nD τ).loc main_arg2) :=
  (W4_old m ρ c main_arg2 (by decide)).trans (W3_arg2 m ρ c)
theorem W4_arg3 : W4 m ρ c (Proc.devRef .tc main_arg3) = m ((c : Thread nD τ).loc main_arg3) :=
  (W4_old m ρ c main_arg3 (by decide)).trans (W3_arg3 m ρ c)
theorem W4_arg14 : W4 m ρ c (Proc.devRef .tc main_arg14) = m ((c : Thread nD τ).loc main_arg14) :=
  (W4_old m ρ c main_arg14 (by decide)).trans (W3_arg14 m ρ c)
theorem W4_arg15 : W4 m ρ c (Proc.devRef .tc main_arg15) = m ((c : Thread nD τ).loc main_arg15) :=
  (W4_old m ρ c main_arg15 (by decide)).trans (W3_arg15 m ρ c)
theorem W4_arg9 : W4 m ρ c (Proc.devRef .tc main_arg9) = m ((c : Thread nD τ).loc main_arg9) :=
  (W4_old m ρ c main_arg9 (by decide)).trans (W3_arg9 m ρ c)
theorem W4_arg11 : W4 m ρ c (Proc.devRef .tc main_arg11) = m ((c : Thread nD τ).loc main_arg11) :=
  (W4_old m ρ c main_arg11 (by decide)).trans (W3_arg11 m ρ c)
theorem W4_arg13 : W4 m ρ c (Proc.devRef .tc main_arg13) = m ((c : Thread nD τ).loc main_arg13) :=
  (W4_old m ρ c main_arg13 (by decide)).trans (W3_arg13 m ρ c)
theorem W4_arg7 : W4 m ρ c (Proc.devRef .tc main_arg7) = m ((c : Thread nD τ).loc main_arg7) :=
  (W4_old m ρ c main_arg7 (by decide)).trans (W3_arg7 m ρ c)
theorem W4_arg10 : W4 m ρ c (Proc.devRef .tc main_arg10) = m ((c : Thread nD τ).loc main_arg10) :=
  (W4_old m ρ c main_arg10 (by decide)).trans (W3_arg10 m ρ c)
theorem W4_arg12 : W4 m ρ c (Proc.devRef .tc main_arg12) = m ((c : Thread nD τ).loc main_arg12) :=
  (W4_old m ρ c main_arg12 (by decide)).trans (W3_arg12 m ρ c)

/-- The first kernel's activations. -/
theorem W9_v22_0 : W9 m ρ c (Proc.devRef .tc main_v22_0) = (dat0 (V3 m ρ) c).arrAt 7 cfg0.N :=
  (W9_from4 m ρ c main_v22_0 (fun V => by unwritten) (fun V => by unwritten) (fun V => by unwritten) (fun V => by unwritten) (fun V => by unwritten)).trans (W4_arr m ρ c 7)

/-- The aggregated projected rows. -/
theorem W9_v35 : W9 m ρ c (Proc.devRef .tc main_v35)
    = aggProj ((dat0 (V3 m ρ) c).arrAt 8 cfg0.N) (m ((c : Thread nD τ).loc main_arg1)) (m ((c : Thread nD τ).loc main_arg2)) (m ((c : Thread nD τ).loc main_arg3)) :=
  (W9_from5 m ρ c main_v35 (fun V => by unwritten) (fun V => by unwritten) (fun V => by unwritten) (fun V => by unwritten)).trans ((s1_v35 (W4 m ρ c)).trans (by
    rw [W4_arg1, W4_arg2, W4_arg3]
    exact congrArg (fun z => aggProj z _ _ _) (W4_arr m ρ c 8)))

/-- The reciprocal of the clipped in-degree, as a column: the same array the first kernel read. -/
theorem W9_v42 : W9 m ρ c (Proc.devRef .tc main_v42)
    = shapeCast S50000x1 (Host.divf (F := Ideal) (broadcastInDim S50000 ![] bcast_S_S50000 (constant (F := Ideal) S_ .f32 0x3F800000#32))
        (Cert.ReferenceIdeal.Read.val_main_v17 (F := Ideal) (m ((c : Thread nD τ).loc main_arg2)))) shapeCasts_S50000_S50000x1 :=
  (s14_v42 (W8 m ρ c)).trans (by
    rw [W8_from4 m ρ c main_v6 (fun V => by unwritten) (fun V => by unwritten) (fun V => by unwritten) (fun V => by unwritten), W4_old m ρ c main_v6 (by decide), W3_v6])

theorem W9_arg7 : W9 m ρ c (Proc.devRef .tc main_arg7) = m ((c : Thread nD τ).loc main_arg7) :=
  (W9_from4 m ρ c main_arg7 (fun V => by unwritten) (fun V => by unwritten) (fun V => by unwritten) (fun V => by unwritten) (fun V => by unwritten)).trans (W4_arg7 m ρ c)
theorem W9_arg10 : W9 m ρ c (Proc.devRef .tc main_arg10) = m ((c : Thread nD τ).loc main_arg10) :=
  (W9_from4 m ρ c main_arg10 (fun V => by unwritten) (fun V => by unwritten) (fun V => by unwritten) (fun V => by unwritten) (fun V => by unwritten)).trans (W4_arg10 m ρ c)
theorem W9_arg12 : W9 m ρ c (Proc.devRef .tc main_arg12) = m ((c : Thread nD τ).loc main_arg12) :=
  (W9_from4 m ρ c main_arg12 (fun V => by unwritten) (fun V => by unwritten) (fun V => by unwritten) (fun V => by unwritten) (fun V => by unwritten)).trans (W4_arg12 m ρ c)

theorem W9_v39 : W9 m ρ c (Proc.devRef .tc main_v39) = shapeCast S1x128 (m ((c : Thread nD τ).loc main_arg9)) shapeCasts_S128_S1x128 :=
  (s14_v39 (W8 m ρ c)).trans (by rw [W8_from4 m ρ c main_arg9 (fun V => by unwritten) (fun V => by unwritten) (fun V => by unwritten) (fun V => by unwritten), W4_arg9])
theorem W9_v40 : W9 m ρ c (Proc.devRef .tc main_v40) = shapeCast S1x64 (m ((c : Thread nD τ).loc main_arg11)) shapeCasts_S64_S1x64 :=
  (s14_v40 (W8 m ρ c)).trans (by rw [W8_from4 m ρ c main_arg11 (fun V => by unwritten) (fun V => by unwritten) (fun V => by unwritten) (fun V => by unwritten), W4_arg11])
theorem W9_v41 : W9 m ρ c (Proc.devRef .tc main_v41) = shapeCast S1x32 (m ((c : Thread nD τ).loc main_arg13)) shapeCasts_S32_S1x32 :=
  (s14_v41 (W8 m ρ c)).trans (by rw [W8_from4 m ρ c main_arg13 (fun V => by unwritten) (fun V => by unwritten) (fun V => by unwritten) (fun V => by unwritten), W4_arg13])

/-- The padded matrix of the last layer. -/
theorem W9_v36 : W9 m ρ c (Proc.devRef .tc main_v36)
    = (pad S32x128 ![0, 0] ![0, 118] ![0, 0] (m ((c : Thread nD τ).loc main_arg14) : (⟨S32x10, .f32⟩ : BufTy).Contents (Elt Ideal))
        (sitofp (F := Ideal) .f32 (W5 m ρ c (Proc.devRef .tc main_c_8) : (⟨S_, .i32⟩ : BufTy).Contents (Elt Ideal))) pads_S32x10_S32x128_000_01180 h_S_ : (⟨S32x128, .f32⟩ : BufTy).Contents (Elt Ideal)) :=
  (W9_from6 m ρ c main_v36 (fun V => by unwritten) (fun V => by unwritten) (fun V => by unwritten)).trans ((s11_v36 (W5 m ρ c)).trans (by
    rw [W5_from4 m ρ c main_arg14 (fun V => by unwritten), W4_arg14]))

/-- The padded bias row of the last layer. -/
theorem W9_v38 : W9 m ρ c (Proc.devRef .tc main_v38)
    = (pad S1x128 ![0, 0] ![0, 118] ![0, 0] (shapeCast S1x10 (m ((c : Thread nD τ).loc main_arg15)) shapeCasts_S10_S1x10 : (⟨S1x10, .f32⟩ : BufTy).Contents (Elt Ideal))
        (sitofp (F := Ideal) .f32 (W7 m ρ c (Proc.devRef .tc main_c_9) : (⟨S_, .i32⟩ : BufTy).Contents (Elt Ideal))) pads_S1x10_S1x128_000_01180 h_S_ : (⟨S1x128, .f32⟩ : BufTy).Contents (Elt Ideal)) :=
  (W9_from8 m ρ c main_v38 (fun V => by unwritten)).trans ((s13_v38 (W7 m ρ c)).trans (by
    rw [show W7 m ρ c (Proc.devRef .tc main_v37) = shapeCast S1x10 (m ((c : Thread nD τ).loc main_arg15)) shapeCasts_S10_S1x10 from
      (s12_v37 (W6 m ρ c)).trans (by rw [W6_from4 m ρ c main_arg15 (fun V => by unwritten) (fun V => by unwritten), W4_arg15])]))

/-! ## At @main's return -/

/-- The embeddings: the second kernel's first array. -/
theorem W11_v43_0 : W11 m ρ c (Proc.devRef .tc main_v43_0) = (dat1 (V9 m ρ) c).arrAt 11 cfg1.N :=
  ((by unwritten : StableHlo.after (hostOps2 (F := Ideal)) (W10 m ρ c) (Proc.devRef .tc main_v43_0) = W10 m ρ c (Proc.devRef .tc main_v43_0))).trans
    (W10_arr m ρ c 11)

/-- The logits: the first ten columns of the second kernel's second array. -/
theorem W11_v44 : W11 m ρ c (Proc.devRef .tc main_v44)
    = extractStridedSlice S50000x10 ![0, 0] ((dat1 (V9 m ρ) c).arrAt 12 cfg1.N) slices_S50000x128_S50000x10_0_0 :=
  (s2_v44 (W10 m ρ c)).trans
    (congrArg (fun z => extractStridedSlice S50000x10 ![0, 0] z slices_S50000x128_S50000x10_0_0) (W10_arr m ρ c 12))

end Cert.KernelIdeal.Entry

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibMatmul.lean ====
/-
  A general lemma: a matrix product with one contracted axis, read at an entry, over the extended reals.

  For an [a, K] matrix `l` and a [K, b] matrix `r`, the product that contracts the second axis of `l` with the first of
  `r`, accumulated into the zero matrix, has at `(p, q)` the entry ∑ₖ l[p,k]·r[k,q]. It holds for any record of the
  product's dimensions of that form (the well-formedness witness is an argument), any precision hint and any two float
  formats of the operands.
-/
import Idealize.ShloMosaic.Lib.ValueIdx
import Idealize.ShloMosaic.Lib.Pipeline.Value
import Idealize.ShloMosaic.PureOps.Ideal.Laws

noncomputable section

namespace Cert.LibMatmul

open Idealize.ShloMosaic Idealize.ShloMosaic.ValueIdx
open scoped BigOperators

/-- A product of an [a, K] matrix with a [K, b] matrix, contracting the one shared axis, accumulated into the zero matrix and read
    at (p, q), is the sum over the shared axis of the products of the row's and the column's entries. -/
theorem matmul_zero_ix2 {a K b : ℕ} {φ₁ φ₂ : FTy}
    (wf : DotDims.WF ⟨2, ![a, K]⟩ ⟨2, ![K, b]⟩ ⟨2, ![a, b]⟩ [1] [0] [0] [1] [] [])
    (prec : Option ContractPrecision)
    (l : FVec Ideal ⟨2, ![a, K]⟩ φ₁) (r : FVec Ideal ⟨2, ![K, b]⟩ φ₂) (p : Fin a) (q : Fin b) :
    FloatOps.matmul (⟨[1], [0], [0], [1], [], [], wf⟩ : DotDims ⟨2, ![a, K]⟩ ⟨2, ![K, b]⟩ ⟨2, ![a, b]⟩) prec l r
        (constant ⟨2, ![a, b]⟩ .f32 0x00000000#32) (ix2 p q)
      = ∑ k : Fin K, l (ix2 p k) * r (ix2 k q) := by
  generalize hD : (⟨[1], [0], [0], [1], [], [], wf⟩ : DotDims ⟨2, ![a, K]⟩ ⟨2, ![K, b]⟩ ⟨2, ![a, b]⟩) = D
  have hlc : D.lhsContracting = [1] := by rw [← hD]
  have hrc : D.rhsContracting = [0] := by rw [← hD]
  have hrank : D.contr.rank = 1 := by rw [D.rank_contr, hlc]; rfl
  have hsize : D.contr.size ⟨0, by omega⟩ = K := by
    rw [D.size_contr 0 (by rw [hlc]; exact Nat.one_pos)]
    simp only [hlc]; rfl
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun ax => Fin.ext (by
    match ax with
    | ⟨0, _⟩ =>
      subst hD
      unfold DotDims.lhsIdx
      rw [dif_neg, dif_pos]
      all_goals first | exact List.not_mem_nil | exact List.mem_singleton.mpr rfl | rfl
    | ⟨1, _⟩ => exact (D.lhsIdx_val_of_single hlc _ _).trans hk)
  have er : D.rhsIdx (ix2 p q) ((contrEquiv1 D K hrank hsize).symm k) = ix2 k q := funext fun ax => Fin.ext (by
    match ax with
    | ⟨0, _⟩ => exact (D.rhsIdx_val_of_single hrc _ _).trans hk
    | ⟨1, _⟩ =>
      subst hD
      unfold DotDims.rhsIdx
      rw [dif_neg, dif_pos]
      all_goals first | exact List.not_mem_nil | exact List.mem_singleton.mpr rfl | rfl)
  rw [el, er]

end Cert.LibMatmul

end
-- ==== Proof.Payloads.lean ====
/-
  The kernel bodies' arithmetic read at one index, at the ideal values (a float an extended real, a change of format the
  identity). Each block product contracts one axis into a zero accumulator, so at an output entry it is the sum over that
  axis of the products of a row's and a column's entries; the remaining operations are pointwise, a column [2000, 1] or a
  row [1, b] being repeated across the block.
-/
import proofs.«160259_j20469814132750_2_alg».proof.Proof.Gen.KernelIdeal.Skeleton
import proofs.«160259_j20469814132750_2_alg».proof.Proof.LibLayout
import proofs.«160259_j20469814132750_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

export Cert.LibMatmul (matmul_zero_ix2)

variable [Facts]

/-! ## The five block products at an entry -/

theorem mm_2000x64_64x256 {φ₁ φ₂ : FTy} (l : FVec Ideal S2000x64 φ₁) (r : FVec Ideal S64x256 φ₂) (p : Fin 2000) (q : Fin 256) :
    FloatOps.matmul dot_S2000x64_S64x256_S2000x256_1_0_0_1_n_n none l r (constant S2000x256 .f32 0x00000000#32) (ix2 p q)
      = ∑ k : Fin 64, l (ix2 p k) * r (ix2 k q) :=
  matmul_zero_ix2 Facts₀.dot_S2000x64_S64x256_S2000x256_1_0_0_1_n_n_wf none l r p q

theorem mm_2000x256_256x128 {φ₁ φ₂ : FTy} (l : FVec Ideal S2000x256 φ₁) (r : FVec Ideal S256x128 φ₂) (p : Fin 2000) (q : Fin 128) :
    FloatOps.matmul dot_S2000x256_S256x128_S2000x128_1_0_0_1_n_n none l r (constant S2000x128 .f32 0x00000000#32) (ix2 p q)
      = ∑ k : Fin 256, l (ix2 p k) * r (ix2 k q) :=
  matmul_zero_ix2 Facts₀.dot_S2000x256_S256x128_S2000x128_1_0_0_1_n_n_wf none l r p q

theorem mm_2000x128_128x64 {φ₁ φ₂ : FTy} (l : FVec Ideal S2000x128 φ₁) (r : FVec Ideal S128x64 φ₂) (p : Fin 2000) (q : Fin 64) :
    FloatOps.matmul dot_S2000x128_S128x64_S2000x64_1_0_0_1_n_n none l r (constant S2000x64 .f32 0x00000000#32) (ix2 p q)
      = ∑ k : Fin 128, l (ix2 p k) * r (ix2 k q) :=
  matmul_zero_ix2 Facts₀.dot_S2000x128_S128x64_S2000x64_1_0_0_1_n_n_wf none l r p q

theorem mm_2000x64_64x32 {φ₁ φ₂ : FTy} (l : FVec Ideal S2000x64 φ₁) (r : FVec Ideal S64x32 φ₂) (p : Fin 2000) (q : Fin 32) :
    FloatOps.matmul dot_S2000x64_S64x32_S2000x32_1_0_0_1_n_n none l r (constant S2000x32 .f32 0x00000000#32) (ix2 p q)
      = ∑ k : Fin 64, l (ix2 p k) * r (ix2 k q) :=
  matmul_zero_ix2 Facts₀.dot_S2000x64_S64x32_S2000x32_1_0_0_1_n_n_wf none l r p q

theorem mm_2000x32_32x128 {φ₁ φ₂ : FTy} (l : FVec Ideal S2000x32 φ₁) (r : FVec Ideal S32x128 φ₂) (p : Fin 2000) (q : Fin 128) :
    FloatOps.matmul dot_S2000x32_S32x128_S2000x128_1_0_0_1_n_n none l r (constant S2000x128 .f32 0x00000000#32) (ix2 p q)
      = ∑ k : Fin 32, l (ix2 p k) * r (ix2 k q) :=
  matmul_zero_ix2 Facts₀.dot_S2000x32_S32x128_S2000x128_1_0_0_1_n_n_wf none l r p q

/-! ## The first kernel -/

/-- The first kernel's first stored value at (p, q): the rectified sum of the two products and the bias row. -/
theorem k0_pay1_apply (v0 v2 : Vec Ideal S2000x64 .f32) (v4 : Vec Ideal S2000x1 .f32) (v9 v11 : Vec Ideal S64x256 .f32)
    (v16 : Vec Ideal S1x256 .f32) (p : Fin 2000) (q : Fin 256) :
    k0_pay1 (F := Ideal) v0 v2 v4 v9 v11 v16 (ix2 p q)
      = max (((∑ k : Fin 64, v0 (ix2 p k) * v9 (ix2 k q))
              + (∑ k : Fin 64, (v2 (ix2 p k) * v4 (ix2 p 0)) * v11 (ix2 k q))) + v16 (ix2 0 q)) 0 := by
  unfold k0_pay1
  simp only [matmul, shapeCast_self]
  rw [maximumf_apply, addf_apply, addf_apply, mm_2000x64_64x256, mm_2000x64_64x256, broadcast_apply,
    ValueIdx.broadcastTo_1b_ab_apply]
  simp only [truncf_apply, mulf_apply, Cert.LibLayout.broadcastTo_a1_ab_apply]
  exact congrArg (max _) Ideal.ofBits_zero_f32

/-- The first kernel's second stored value at (p, c): the first one's row p times the weight matrix's column c. -/
theorem k0_pay2_apply (v0 v2 : Vec Ideal S2000x64 .f32) (v4 : Vec Ideal S2000x1 .f32) (v9 v11 : Vec Ideal S64x256 .f32)
    (v16 : Vec Ideal S1x256 .f32) (v23 : Vec Ideal S256x128 .f32) (p : Fin 2000) (c : Fin 128) :
    k0_pay2 (F := Ideal) v0 v2 v4 v9 v11 v16 v23 (ix2 p c)
      = ∑ j : Fin 256, k0_pay1 (F := Ideal) v0 v2 v4 v9 v11 v16 (ix2 p j) * v23 (ix2 j c) := by
  unfold k0_pay2
  simp only [matmul]
  rw [mm_2000x256_256x128]
  simp only [truncf_apply]

/-! ## The second kernel -/

/-- The second kernel's first stored value at (p, c): a product, plus a block scaled row by row, plus the bias row. -/
theorem k1_pay2_apply (v0 : Vec Ideal S2000x256 .f32) (v3 : Vec Ideal S256x128 .f32) (v5 : Vec Ideal S2000x128 .f32)
    (v7 : Vec Ideal S2000x1 .f32) (v13 : Vec Ideal S1x128 .f32) (p : Fin 2000) (c : Fin 128) :
    k1_pay2 (F := Ideal) v0 v3 v5 v7 v13 (ix2 p c)
      = ((∑ k : Fin 256, v0 (ix2 p k) * v3 (ix2 k c)) + v5 (ix2 p c) * v7 (ix2 p 0)) + v13 (ix2 0 c) := by
  unfold k1_pay2
  simp only [matmul, shapeCast_self]
  rw [addf_apply, addf_apply, mm_2000x256_256x128, mulf_apply, Cert.LibLayout.broadcastTo_a1_ab_apply,
    ValueIdx.broadcastTo_1b_ab_apply]
  simp only [truncf_apply]

/-- The value the second kernel's loop carries, at (p, c): two further layers on the first stored value, the inner one
    rectified after its bias row. -/
theorem k1_pay3_apply (v0 : Vec Ideal S2000x256 .f32) (v3 : Vec Ideal S256x128 .f32) (v5 : Vec Ideal S2000x128 .f32)
    (v7 : Vec Ideal S2000x1 .f32) (v13 : Vec Ideal S1x128 .f32) (v19 : Vec Ideal S128x64 .f32) (v22 : Vec Ideal S1x64 .f32)
    (v29 : Vec Ideal S64x32 .f32) (p : Fin 2000) (c : Fin 32) :
    k1_pay3 (F := Ideal) v0 v3 v5 v7 v13 v19 v22 v29 (ix2 p c)
      = ∑ j : Fin 64, max ((∑ i : Fin 128, k1_pay2 (F := Ideal) v0 v3 v5 v7 v13 (ix2 p i) * v19 (ix2 i j)) + v22 (ix2 0 j)) 0
          * v29 (ix2 j c) := by
  unfold k1_pay3
  simp only [matmul, shapeCast_self]
  rw [mm_2000x64_64x32]
  refine Finset.sum_congr rfl fun j _ => ?_
  rw [truncf_apply, truncf_apply, maximumf_apply, addf_apply, mm_2000x128_128x64, broadcast_apply,
    ValueIdx.broadcastTo_1b_ab_apply]
  simp only [truncf_apply]
  exact congrArg (fun z => max _ z * _) Ideal.ofBits_zero_f32

/-- The second kernel's last stored value at (p, c): the carried value, after its bias row and rectified, through the last
    layer, plus that layer's bias row. -/
theorem k1_pay1_apply (v31 : FVec Ideal S2000x32 .f32) (v33 : FVec Ideal S1x32 .f32) (v39 : Vec Ideal S32x128 .f32)
    (v43 : Vec Ideal S1x128 .f32) (p : Fin 2000) (c : Fin 128) :
    k1_pay1 (F := Ideal) v31 v33 v39 v43 (ix2 p c)
      = (∑ k : Fin 32, max (v31 (ix2 p k) + v33 (ix2 0 k)) 0 * v39 (ix2 k c)) + v43 (ix2 0 c) := by
  unfold k1_pay1
  simp only [matmul, shapeCast_self]
  rw [addf_apply, mm_2000x32_32x128, ValueIdx.broadcastTo_1b_ab_apply]
  refine congrArg (· + _) (Finset.sum_congr rfl fun k _ => ?_)
  rw [truncf_apply, truncf_apply, maximumf_apply, addf_apply, broadcast_apply, ValueIdx.broadcastTo_1b_ab_apply]
  exact congrArg (fun z => max _ z * _) Ideal.ofBits_zero_f32

/-- The bias row the loop carries beside it is the loaded row itself. -/
theorem k1_pay4_eq (v32 : Vec Ideal S1x32 .f32) : k1_pay4 (F := Ideal) v32 = v32 := by
  unfold k1_pay4
  exact shapeCast_self _ _

end Cert.KernelIdeal.Pay

end
-- ==== Proof.Spec.lean ====
/-
  The two kernels as whole-array functions, index by index, on the extended reals.

  `act`  — layer 1 at node `n`, unit `j`: the larger of zero and
            ∑ₖ x[n,k]·Ws[k,j] + ∑ₖ (s[n,k]·d[n])·Wn[k,j] + b[j],
          `s` the aggregated messages of the node and `d` the reciprocal of its clipped in-degree (a column).
  `proj` — a matrix product row by row: ∑ⱼ y[n,j]·W[j,c].
  `emb`  — layer 2 at node `n`, unit `c`: ∑ₖ y[n,k]·Ws[k,c] + s₂[n,c]·d[n] + b[c], `s₂` the aggregated PROJECTED rows.
  `head` — three dense layers on a node's embedding, the first two followed by the larger-of-zero:
            ∑ₖ max(∑ⱼ max(∑ₗ e[n,l]·W₁[l,j] + b₁[j], 0)·W₂[j,k] + b₂[k], 0)·W₃[k,c] + b₃[c].
  Biases are rows [1, ·], the reciprocal degree a column [·, 1], as the kernels stage them.
-/
import Idealize.ShloMosaic.PureOps.Ideal
import Idealize.ShloMosaic.Lib.ValueIdx

open scoped BigOperators

noncomputable section

namespace Cert.Spec

open Idealize.ShloMosaic Idealize.ShloMosaic.ValueIdx

/-- An `a × b` array of extended reals. -/
abbrev Mat (a b : ℕ) : Type := (⟨2, ![a, b]⟩ : Shape).Idx → EReal

def act (X S : Mat 50000 64) (D : Mat 50000 1) (Ws Wn : Mat 64 256) (B : Mat 1 256) : Mat 50000 256 :=
  fun i => max (((∑ k : Fin 64, X (ix2 (i 0) k) * Ws (ix2 k (i 1)))
    + (∑ k : Fin 64, (S (ix2 (i 0) k) * D (ix2 (i 0) 0)) * Wn (ix2 k (i 1)))) + B (ix2 0 (i 1))) 0

def proj (Y : Mat 50000 256) (W : Mat 256 128) : Mat 50000 128 :=
  fun i => ∑ j : Fin 256, Y (ix2 (i 0) j) * W (ix2 j (i 1))

def emb (Y : Mat 50000 256) (S2 : Mat 50000 128) (D : Mat 50000 1) (Ws : Mat 256 128) (B : Mat 1 128) : Mat 50000 128 :=
  fun i => ((∑ k : Fin 256, Y (ix2 (i 0) k) * Ws (ix2 k (i 1))) + S2 (ix2 (i 0) (i 1)) * D (ix2 (i 0) 0)) + B (ix2 0 (i 1))

def head (E : Mat 50000 128) (W1 : Mat 128 64) (B1 : Mat 1 64) (W2 : Mat 64 32) (B2 : Mat 1 32) (W3 : Mat 32 128)
    (B3 : Mat 1 128) : Mat 50000 128 :=
  fun i => (∑ k : Fin 32, max ((∑ j : Fin 64, max ((∑ l : Fin 128, E (ix2 (i 0) l) * W1 (ix2 l j)) + B1 (ix2 0 j)) 0
    * W2 (ix2 j k)) + B2 (ix2 0 k)) 0 * W3 (ix2 k (i 1))) + B3 (ix2 0 (i 1))

end Cert.Spec

end
-- ==== Proof.RegionOne.lean ====
/-
  From blocks to whole arrays, for the first kernel. The grid has 25 points; at point t each of the three row-block inputs and
  the two outputs is rows 2000 t … 2000 t + 1999 of its array, and each weight matrix and the bias row is its whole array.
  So what point t writes back is block t of one function of the arrays the kernel reads, index by index; the 25 blocks
  cover every row (row r lies in the block of point r / 2000), and the output arrays end as those functions.
-/
import proofs.«160259_j20469814132750_2_alg».proof.Proof.Gen.KernelIdeal.Frame
import proofs.«160259_j20469814132750_2_alg».proof.Proof.Payloads
import proofs.«160259_j20469814132750_2_alg».proof.Proof.Spec
import Idealize.ShloMosaic.Lib.Pipeline.Value
import Idealize.ShloMosaic.Lib.ValueIdx

noncomputable section

namespace Cert.KernelIdeal.RegionOne

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators
open Cert.Spec (act proj emb head)

variable (V : (c : Dev nD) → (b : Ref sig .tc) → Buf (Elt Ideal) ((c : Thread nD τ).loc b))

theorem hz : (![0, 0] : Fin 2 → Nat) = fun _ => 0 := funext fun a => by fin_cases a <;> rfl

/-- The grid has 25 points. -/
theorem N_eq : cfg0.N = 25 := by decide

/-- Row x of the block of point t is row 2000 t + x of the array. -/
def row (t : Fin cfg0.N) (x : Fin 2000) : Fin 50000 :=
  ⟨t.val * 2000 + x.val, by have h25 : t.val < 25 := lt_of_lt_of_eq t.isLt N_eq; have := x.isLt; omega⟩

/-- The index maps, decided over the grid: the row blocks move with the point, the weights and bias rows stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## Each input block as a part of its array -/

/-- Window 0's block at point t, entry (x, y), is its array's entry (2000 t + x, y). -/
theorem blk0 (c : Dev nD) (t : Fin cfg0.N) (x : Fin 2000) (y : Fin 64) :
    (iblk0 V c 0 t : Vec Ideal S2000x64 .f32) (ix2 x y) = (V c main_arg0 : S50000x64.Idx → EReal) (ix2 (row t x) y) := by
  obtain ⟨f0, f1, f2, f3, f4, f5, f6, f7, f8⟩ := idx_facts t
  unfold iblk0
  rw [View.read_apply]
  show V c main_arg0 _ = V c main_arg0 _
  congr 1
  funext a
  apply Fin.ext
  match a with
  | ⟨0, _⟩ => show win0_0.index t (0 : Fin 2) * 2000 + 1 * x.val = t.val * 2000 + x.val; rw [f0.1]; omega
  | ⟨1, _⟩ => show win0_0.index t (1 : Fin 2) * 64 + 1 * y.val = y.val; rw [f0.2]; omega

/-- Window 1's block at point t, entry (x, y), is its array's entry (2000 t + x, y). -/
theorem blk1 (c : Dev nD) (t : Fin cfg0.N) (x : Fin 2000) (y : Fin 64) :
    (iblk0 V c 1 t : Vec Ideal S2000x64 .f32) (ix2 x y) = (V c main_v19 : S50000x64.Idx → EReal) (ix2 (row t x) y) := by
  obtain ⟨f0, f1, f2, f3, f4, f5, f6, f7, f8⟩ := idx_facts t
  unfold iblk0
  rw [View.read_apply]
  show V c main_v19 _ = V c main_v19 _
  congr 1
  funext a
  apply Fin.ext
  match a with
  | ⟨0, _⟩ => show win0_1.index t (0 : Fin 2) * 2000 + 1 * x.val = t.val * 2000 + x.val; rw [f1.1]; omega
  | ⟨1, _⟩ => show win0_1.index t (1 : Fin 2) * 64 + 1 * y.val = y.val; rw [f1.2]; omega

/-- Window 2's block at point t, entry (x, y), is its array's entry (2000 t + x, y). -/
theorem blk2 (c : Dev nD) (t : Fin cfg0.N) (x : Fin 2000) (y : Fin 1) :
    (iblk0 V c 2 t : Vec Ideal S2000x1 .f32) (ix2 x y) = (V c main_v21 : S50000x1.Idx → EReal) (ix2 (row t x) y) := by
  obtain ⟨f0, f1, f2, f3, f4, f5, f6, f7, f8⟩ := idx_facts t
  unfold iblk0
  rw [View.read_apply]
  show V c main_v21 _ = V c main_v21 _
  congr 1
  funext a
  apply Fin.ext
  match a with
  | ⟨0, _⟩ => show win0_2.index t (0 : Fin 2) * 2000 + 1 * x.val = t.val * 2000 + x.val; rw [f2.1]; omega
  | ⟨1, _⟩ => show win0_2.index t (1 : Fin 2) * 1 + 1 * y.val = y.val; rw [f2.2]; omega

/-- Window 3's block is its whole array at every point. -/
theorem blk3 (c : Dev nD) (t : Fin cfg0.N) (x : Fin 64) (y : Fin 256) :
    (iblk0 V c 3 t : Vec Ideal S64x256 .f32) (ix2 x y) = (V c main_arg4 : S64x256.Idx → EReal) (ix2 x y) := by
  obtain ⟨f0, f1, f2, f3, f4, f5, f6, f7, f8⟩ := idx_facts t
  unfold iblk0
  rw [View.read_apply]
  show V c main_arg4 _ = V c main_arg4 _
  congr 1
  funext a
  apply Fin.ext
  match a with
  | ⟨0, _⟩ => show win0_3.index t (0 : Fin 2) * 64 + 1 * x.val = x.val; rw [f3.1]; omega
  | ⟨1, _⟩ => show win0_3.index t (1 : Fin 2) * 256 + 1 * y.val = y.val; rw [f3.2]; omega

/-- Window 4's block is its whole array at every point. -/
theorem blk4 (c : Dev nD) (t : Fin cfg0.N) (x : Fin 64) (y : Fin 256) :
    (iblk0 V c 4 t : Vec Ideal S64x256 .f32) (ix2 x y) = (V c main_arg5 : S64x256.Idx → EReal) (ix2 x y) := by
  obtain ⟨f0, f1, f2, f3, f4, f5, f6, f7, f8⟩ := idx_facts t
  unfold iblk0
  rw [View.read_apply]
  show V c main_arg5 _ = V c main_arg5 _
  congr 1
  funext a
  apply Fin.ext
  match a with
  | ⟨0, _⟩ => show win0_4.index t (0 : Fin 2) * 64 + 1 * x.val = x.val; rw [f4.1]; omega
  | ⟨1, _⟩ => show win0_4.index t (1 : Fin 2) * 256 + 1 * y.val = y.val; rw [f4.2]; omega

/-- Window 5's block is its whole array at every point. -/
theorem blk5 (c : Dev nD) (t : Fin cfg0.N) (x : Fin 1) (y : Fin 256) :
    (iblk0 V c 5 t : Vec Ideal S1x256 .f32) (ix2 x y) = (V c main_v20 : S1x256.Idx → EReal) (ix2 x y) := by
  obtain ⟨f0, f1, f2, f3, f4, f5, f6, f7, f8⟩ := idx_facts t
  unfold iblk0
  rw [View.read_apply]
  show V c main_v20 _ = V c main_v20 _
  congr 1
  funext a
  apply Fin.ext
  match a with
  | ⟨0, _⟩ => show win0_5.index t (0 : Fin 2) * 1 + 1 * x.val = x.val; rw [f5.1]; omega
  | ⟨1, _⟩ => show win0_5.index t (1 : Fin 2) * 256 + 1 * y.val = y.val; rw [f5.2]; omega

/-- Window 6's block is its whole array at every point. -/
theorem blk6 (c : Dev nD) (t : Fin cfg0.N) (x : Fin 256) (y : Fin 128) :
    (iblk0 V c 6 t : Vec Ideal S256x128 .f32) (ix2 x y) = (V c main_arg8 : S256x128.Idx → EReal) (ix2 x y) := by
  obtain ⟨f0, f1, f2, f3, f4, f5, f6, f7, f8⟩ := idx_facts t
  unfold iblk0
  rw [View.read_apply]
  show V c main_arg8 _ = V c main_arg8 _
  congr 1
  funext a
  apply Fin.ext
  match a with
  | ⟨0, _⟩ => show win0_6.index t (0 : Fin 2) * 256 + 1 * x.val = x.val; rw [f6.1]; omega
  | ⟨1, _⟩ => show win0_6.index t (1 : Fin 2) * 128 + 1 * y.val = y.val; rw [f6.2]; omega

/-! ## The payloads of the blocks, as the whole-array functions at the block's place -/

/-- The first stored value of point t at (x, y) is `act` of the arrays at (2000 t + x, y). -/
theorem pay1_blk (c : Dev nD) (t : Fin cfg0.N) (x : Fin 2000) (y : Fin 256) :
    k0_pay1 (F := Ideal) (iblk0 V c 0 t) (iblk0 V c 1 t) (iblk0 V c 2 t) (iblk0 V c 3 t) (iblk0 V c 4 t) (iblk0 V c 5 t) (ix2 x y)
      = act (V c main_arg0) (V c main_v19) (V c main_v21) (V c main_arg4) (V c main_arg5) (V c main_v20) (ix2 (row t x) y) := by
  refine (Pay.k0_pay1_apply _ _ _ _ _ _ x y).trans ?_
  simp only [blk0 V c t, blk1 V c t, blk2 V c t, blk3 V c t, blk4 V c t, blk5 V c t]
  rfl

/-- The second stored value of point t at (x, y) is `proj` of `act` of the arrays at (2000 t + x, y). -/
theorem pay2_blk (c : Dev nD) (t : Fin cfg0.N) (x : Fin 2000) (y : Fin 128) :
    k0_pay2 (F := Ideal) (iblk0 V c 0 t) (iblk0 V c 1 t) (iblk0 V c 2 t) (iblk0 V c 3 t) (iblk0 V c 4 t) (iblk0 V c 5 t) (iblk0 V c 6 t) (ix2 x y)
      = proj (act (V c main_arg0) (V c main_v19) (V c main_v21) (V c main_arg4) (V c main_arg5) (V c main_v20)) (V c main_arg8) (ix2 (row t x) y) := by
  refine (Pay.k0_pay2_apply _ _ _ _ _ _ _ x y).trans ?_
  simp only [pay1_blk V c t, blk6 V c t]
  rfl

/-! ## What each point writes back -/

/-- Entry (x, y) of output window 7's block at point t is entry (2000 t + x, y) of its array. -/
theorem emb7 (t : Fin cfg0.N) (x : Fin 2000) (y : Fin 256) :
    ((cfg0.win 7).blk t).view.emb (ix2 x y) = (ix2 (row t x) y : S50000x256.Idx) := by
  obtain ⟨f0, f1, f2, f3, f4, f5, f6, f7, f8⟩ := idx_facts t
  funext a
  apply Fin.ext
  match a with
  | ⟨0, _⟩ => show win0_7.index t (0 : Fin 2) * 2000 + 1 * x.val = t.val * 2000 + x.val; rw [f7.1]; omega
  | ⟨1, _⟩ => show win0_7.index t (1 : Fin 2) * 256 + 1 * y.val = y.val; rw [f7.2]; omega

/-- An index of the array is in point t's block iff each coordinate is in the block's range on its axis. -/
theorem mem_blk7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v22_0).slice (win0_7.rect t)).set ↔ _
  rw [View.set_slice_whole, Rect.mem_set_unit]
  exact Iff.rfl

/-- Every row of the array is in some point's block: row r in point r / 2000's. -/
theorem cover7 (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ : ∃ t : Fin cfg0.N, t.val = (i 0).val / 2000 := ⟨⟨(i 0).val / 2000, by rw [N_eq]; omega⟩, rfl⟩
  obtain ⟨f0, f1, f2, f3, f4, f5, f6, f7, f8⟩ := idx_facts t
  refine ⟨t, flush0_7 t, ?_⟩
  rw [mem_blk7]
  intro a
  match a with
  | ⟨0, _⟩ =>
    show win0_7.index t (0 : Fin 2) * 2000 ≤ (i 0).val ∧ (i 0).val < win0_7.index t (0 : Fin 2) * 2000 + 2000
    rw [f7.1, ht]; omega
  | ⟨1, _⟩ =>
    show win0_7.index t (1 : Fin 2) * 256 ≤ (i 1).val ∧ (i 1).val < win0_7.index t (1 : Fin 2) * 256 + 256
    rw [f7.2]; omega

/-- Entry (x, y) of output window 8's block at point t is entry (2000 t + x, y) of its array. -/
theorem emb8 (t : Fin cfg0.N) (x : Fin 2000) (y : Fin 128) :
    ((cfg0.win 8).blk t).view.emb (ix2 x y) = (ix2 (row t x) y : S50000x128.Idx) := by
  obtain ⟨f0, f1, f2, f3, f4, f5, f6, f7, f8⟩ := idx_facts t
  funext a
  apply Fin.ext
  match a with
  | ⟨0, _⟩ => show win0_8.index t (0 : Fin 2) * 2000 + 1 * x.val = t.val * 2000 + x.val; rw [f8.1]; omega
  | ⟨1, _⟩ => show win0_8.index t (1 : Fin 2) * 128 + 1 * y.val = y.val; rw [f8.2]; omega

/-- An index of the array is in point t's block iff each coordinate is in the block's range on its axis. -/
theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v22_1).slice (win0_8.rect t)).set ↔ _
  rw [View.set_slice_whole, Rect.mem_set_unit]
  exact Iff.rfl

/-- Every row of the array is in some point's block: row r in point r / 2000's. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [N_eq]; omega⟩, rfl⟩
  obtain ⟨f0, f1, f2, f3, f4, f5, f6, f7, f8⟩ := idx_facts t
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    rw [f8.1, ht]; omega
  | ⟨1, _⟩ =>
    show win0_8.index t (1 : Fin 2) * 128 ≤ (i 1).val ∧ (i 1).val < win0_8.index t (1 : Fin 2) * 128 + 128
    rw [f8.2]; omega

/-- Point t writes back, to the first output, block t of `act` of the arrays the kernel reads. -/
theorem flushed7_eq (c : Dev nD) (t : Fin cfg0.N) :
    (dat0 V c).flushed 7 t = ((cfg0.win 7).blk t).view.read (Elt Ideal) (act (V c main_arg0) (V c main_v19) (V c main_v21) (V c main_arg4) (V c main_arg5) (V c main_v20)) := by
  show (cfg0.win 7).cut (grid0.coords t) ((dat0 V c).after 7 t) = _
  rw [after0_7]
  unfold out0_7
  rw [View.canon_unit_zero hz]
  simp only [View.ld_unit_zero (S := S2000x64) hz, View.ld_unit_zero (S := S2000x1) hz, View.ld_unit_zero (S := S64x256) hz,
    View.ld_unit_zero (S := S1x256) hz]
  funext j
  obtain ⟨x, y, rfl⟩ : ∃ (x : Fin 2000) (y : Fin 256), j = ix2 x y := ⟨j 0, j 1, eq_ix2 j⟩
  rw [View.read_apply, emb7]
  exact pay1_blk V c t x y

/-- Point t writes back, to the second output, block t of `proj` of `act` of the arrays the kernel reads. -/
theorem flushed8_eq (c : Dev nD) (t : Fin cfg0.N) :
    (dat0 V c).flushed 8 t = ((cfg0.win 8).blk t).view.read (Elt Ideal) (proj (act (V c main_arg0) (V c main_v19) (V c main_v21) (V c main_arg4) (V c main_arg5) (V c main_v20)) (V c main_arg8)) := by
  show (cfg0.win 8).cut (grid0.coords t) ((dat0 V c).after 8 t) = _
  rw [after0_8]
  unfold out0_8
  rw [View.canon_unit_zero hz]
  simp only [View.ld_unit_zero (S := S2000x64) hz, View.ld_unit_zero (S := S2000x1) hz, View.ld_unit_zero (S := S64x256) hz,
    View.ld_unit_zero (S := S1x256) hz, View.ld_unit_zero (S := S256x128) hz]
  funext j
  obtain ⟨x, y, rfl⟩ : ∃ (x : Fin 2000) (y : Fin 128), j = ix2 x y := ⟨j 0, j 1, eq_ix2 j⟩
  rw [View.read_apply, emb8]
  exact pay2_blk V c t x y

/-! ## The arrays after the run of the region -/

/-- The first output array ends as `act` of the arrays the kernel reads, as the region finds them. -/
theorem final7 (c : Dev nD) :
    (dat0 V c).arrAt 7 cfg0.N = act (V c main_arg0) (V c main_v19) (V c main_v21) (V c main_arg4) (V c main_arg5) (V c main_v20) :=
  (dat0 V c).arrAt_eq_of_cover 7 _ (fun t _ => flushed7_eq V c t) cover7

/-- The second output array ends as `proj` of that and the last weight matrix. -/
theorem final8 (c : Dev nD) :
    (dat0 V c).arrAt 8 cfg0.N = proj (act (V c main_arg0) (V c main_v19) (V c main_v21) (V c main_arg4) (V c main_arg5) (V c main_v20)) (V c main_arg8) :=
  (dat0 V c).arrAt_eq_of_cover 8 _ (fun t _ => flushed8_eq V c t) cover8

end Cert.KernelIdeal.RegionOne

end
-- ==== Proof.RegionTwo.lean ====
/-
  From blocks to whole arrays, for the second kernel. The grid has 25 points; at point t each of the three row-block inputs
  and the two outputs is rows 2000 t … 2000 t + 1999 of its array, and each weight matrix and bias row is its whole array.
  So what point t writes back is block t of one function of the arrays the kernel reads, index by index; the 25 blocks
  cover every row (row r lies in the block of point r / 2000), and the output arrays end as those functions.
-/
import proofs.«160259_j20469814132750_2_alg».proof.Proof.Gen.KernelIdeal.Frame
import proofs.«160259_j20469814132750_2_alg».proof.Proof.Payloads
import proofs.«160259_j20469814132750_2_alg».proof.Proof.Spec
import Idealize.ShloMosaic.Lib.Pipeline.Value
import Idealize.ShloMosaic.Lib.ValueIdx

noncomputable section

namespace Cert.KernelIdeal.RegionTwo

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators
open Cert.Spec (act proj emb head)

variable (V : (c : Dev nD) → (b : Ref sig .tc) → Buf (Elt Ideal) ((c : Thread nD τ).loc b))

theorem hz : (![0, 0] : Fin 2 → Nat) = fun _ => 0 := funext fun a => by fin_cases a <;> rfl

/-- The grid has 25 points. -/
theorem N_eq : cfg1.N = 25 := by decide

/-- Row x of the block of point t is row 2000 t + x of the array. -/
def row (t : Fin cfg1.N) (x : Fin 2000) : Fin 50000 :=
  ⟨t.val * 2000 + x.val, by have h25 : t.val < 25 := lt_of_lt_of_eq t.isLt N_eq; have := x.isLt; omega⟩

/-- The index maps, decided over the grid: the row blocks move with the point, the weights and bias rows stay. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

/-! ## Each input block as a part of its array -/

/-- Window 0's block at point t, entry (x, y), is its array's entry (2000 t + x, y). -/
theorem blk0 (c : Dev nD) (t : Fin cfg1.N) (x : Fin 2000) (y : Fin 256) :
    (iblk1 V c 0 t : Vec Ideal S2000x256 .f32) (ix2 x y) = (V c main_v22_0 : S50000x256.Idx → EReal) (ix2 (row t x) y) := by
  obtain ⟨f0, f1, f2, f3, f4, f5, f6, f7, f8, f9, f10, f11, f12⟩ := idx_facts t
  unfold iblk1
  rw [View.read_apply]
  show V c main_v22_0 _ = V c main_v22_0 _
  congr 1
  funext a
  apply Fin.ext
  match a with
  | ⟨0, _⟩ => show win1_0.index t (0 : Fin 2) * 2000 + 1 * x.val = t.val * 2000 + x.val; rw [f0.1]; omega
  | ⟨1, _⟩ => show win1_0.index t (1 : Fin 2) * 256 + 1 * y.val = y.val; rw [f0.2]; omega

/-- Window 1's block at point t, entry (x, y), is its array's entry (2000 t + x, y). -/
theorem blk1 (c : Dev nD) (t : Fin cfg1.N) (x : Fin 2000) (y : Fin 128) :
    (iblk1 V c 1 t : Vec Ideal S2000x128 .f32) (ix2 x y) = (V c main_v35 : S50000x128.Idx → EReal) (ix2 (row t x) y) := by
  obtain ⟨f0, f1, f2, f3, f4, f5, f6, f7, f8, f9, f10, f11, f12⟩ := idx_facts t
  unfold iblk1
  rw [View.read_apply]
  show V c main_v35 _ = V c main_v35 _
  congr 1
  funext a
  apply Fin.ext
  match a with
  | ⟨0, _⟩ => show win1_1.index t (0 : Fin 2) * 2000 + 1 * x.val = t.val * 2000 + x.val; rw [f1.1]; omega
  | ⟨1, _⟩ => show win1_1.index t (1 : Fin 2) * 128 + 1 * y.val = y.val; rw [f1.2]; omega

/-- Window 2's block at point t, entry (x, y), is its array's entry (2000 t + x, y). -/
theorem blk2 (c : Dev nD) (t : Fin cfg1.N) (x : Fin 2000) (y : Fin 1) :
    (iblk1 V c 2 t : Vec Ideal S2000x1 .f32) (ix2 x y) = (V c main_v42 : S50000x1.Idx → EReal) (ix2 (row t x) y) := by
  obtain ⟨f0, f1, f2, f3, f4, f5, f6, f7, f8, f9, f10, f11, f12⟩ := idx_facts t
  unfold iblk1
  rw [View.read_apply]
  show V c main_v42 _ = V c main_v42 _
  congr 1
  funext a
  apply Fin.ext
  match a with
  | ⟨0, _⟩ => show win1_2.index t (0 : Fin 2) * 2000 + 1 * x.val = t.val * 2000 + x.val; rw [f2.1]; omega
  | ⟨1, _⟩ => show win1_2.index t (1 : Fin 2) * 1 + 1 * y.val = y.val; rw [f2.2]; omega

/-- Window 3's block is its whole array at every point. -/
theorem blk3 (c : Dev nD) (t : Fin cfg1.N) (x : Fin 256) (y : Fin 128) :
    (iblk1 V c 3 t : Vec Ideal S256x128 .f32) (ix2 x y) = (V c main_arg7 : S256x128.Idx → EReal) (ix2 x y) := by
  obtain ⟨f0, f1, f2, f3, f4, f5, f6, f7, f8, f9, f10, f11, f12⟩ := idx_facts t
  unfold iblk1
  rw [View.read_apply]
  show V c main_arg7 _ = V c main_arg7 _
  congr 1
  funext a
  apply Fin.ext
  match a with
  | ⟨0, _⟩ => show win1_3.index t (0 : Fin 2) * 256 + 1 * x.val = x.val; rw [f3.1]; omega
  | ⟨1, _⟩ => show win1_3.index t (1 : Fin 2) * 128 + 1 * y.val = y.val; rw [f3.2]; omega

/-- Window 4's block is its whole array at every point. -/
theorem blk4 (c : Dev nD) (t : Fin cfg1.N) (x : Fin 1) (y : Fin 128) :
    (iblk1 V c 4 t : Vec Ideal S1x128 .f32) (ix2 x y) = (V c main_v39 : S1x128.Idx → EReal) (ix2 x y) := by
  obtain ⟨f0, f1, f2, f3, f4, f5, f6, f7, f8, f9, f10, f11, f12⟩ := idx_facts t
  unfold iblk1
  rw [View.read_apply]
  show V c main_v39 _ = V c main_v39 _
  congr 1
  funext a
  apply Fin.ext
  match a with
  | ⟨0, _⟩ => show win1_4.index t (0 : Fin 2) * 1 + 1 * x.val = x.val; rw [f4.1]; omega
  | ⟨1, _⟩ => show win1_4.index t (1 : Fin 2) * 128 + 1 * y.val = y.val; rw [f4.2]; omega

/-- Window 5's block is its whole array at every point. -/
theorem blk5 (c : Dev nD) (t : Fin cfg1.N) (x : Fin 128) (y : Fin 64) :
    (iblk1 V c 5 t : Vec Ideal S128x64 .f32) (ix2 x y) = (V c main_arg10 : S128x64.Idx → EReal) (ix2 x y) := by
  obtain ⟨f0, f1, f2, f3, f4, f5, f6, f7, f8, f9, f10, f11, f12⟩ := idx_facts t
  unfold iblk1
  rw [View.read_apply]
  show V c main_arg10 _ = V c main_arg10 _
  congr 1
  funext a
  apply Fin.ext
  match a with
  | ⟨0, _⟩ => show win1_5.index t (0 : Fin 2) * 128 + 1 * x.val = x.val; rw [f5.1]; omega
  | ⟨1, _⟩ => show win1_5.index t (1 : Fin 2) * 64 + 1 * y.val = y.val; rw [f5.2]; omega

/-- Window 6's block is its whole array at every point. -/
theorem blk6 (c : Dev nD) (t : Fin cfg1.N) (x : Fin 1) (y : Fin 64) :
    (iblk1 V c 6 t : Vec Ideal S1x64 .f32) (ix2 x y) = (V c main_v40 : S1x64.Idx → EReal) (ix2 x y) := by
  obtain ⟨f0, f1, f2, f3, f4, f5, f6, f7, f8, f9, f10, f11, f12⟩ := idx_facts t
  unfold iblk1
  rw [View.read_apply]
  show V c main_v40 _ = V c main_v40 _
  congr 1
  funext a
  apply Fin.ext
  match a with
  | ⟨0, _⟩ => show win1_6.index t (0 : Fin 2) * 1 + 1 * x.val = x.val; rw [f6.1]; omega
  | ⟨1, _⟩ => show win1_6.index t (1 : Fin 2) * 64 + 1 * y.val = y.val; rw [f6.2]; omega

/-- Window 7's block is its whole array at every point. -/
theorem blk7 (c : Dev nD) (t : Fin cfg1.N) (x : Fin 64) (y : Fin 32) :
    (iblk1 V c 7 t : Vec Ideal S64x32 .f32) (ix2 x y) = (V c main_arg12 : S64x32.Idx → EReal) (ix2 x y) := by
  obtain ⟨f0, f1, f2, f3, f4, f5, f6, f7, f8, f9, f10, f11, f12⟩ := idx_facts t
  unfold iblk1
  rw [View.read_apply]
  show V c main_arg12 _ = V c main_arg12 _
  congr 1
  funext a
  apply Fin.ext
  match a with
  | ⟨0, _⟩ => show win1_7.index t (0 : Fin 2) * 64 + 1 * x.val = x.val; rw [f7.1]; omega
  | ⟨1, _⟩ => show win1_7.index t (1 : Fin 2) * 32 + 1 * y.val = y.val; rw [f7.2]; omega

/-- Window 8's block is its whole array at every point. -/
theorem blk8 (c : Dev nD) (t : Fin cfg1.N) (x : Fin 1) (y : Fin 32) :
    (iblk1 V c 8 t : Vec Ideal S1x32 .f32) (ix2 x y) = (V c main_v41 : S1x32.Idx → EReal) (ix2 x y) := by
  obtain ⟨f0, f1, f2, f3, f4, f5, f6, f7, f8, f9, f10, f11, f12⟩ := idx_facts t
  unfold iblk1
  rw [View.read_apply]
  show V c main_v41 _ = V c main_v41 _
  congr 1
  funext a
  apply Fin.ext
  match a with
  | ⟨0, _⟩ => show win1_8.index t (0 : Fin 2) * 1 + 1 * x.val = x.val; rw [f8.1]; omega
  | ⟨1, _⟩ => show win1_8.index t (1 : Fin 2) * 32 + 1 * y.val = y.val; rw [f8.2]; omega

/-- Window 9's block is its whole array at every point. -/
theorem blk9 (c : Dev nD) (t : Fin cfg1.N) (x : Fin 32) (y : Fin 128) :
    (iblk1 V c 9 t : Vec Ideal S32x128 .f32) (ix2 x y) = (V c main_v36 : S32x128.Idx → EReal) (ix2 x y) := by
  obtain ⟨f0, f1, f2, f3, f4, f5, f6, f7, f8, f9, f10, f11, f12⟩ := idx_facts t
  unfold iblk1
  rw [View.read_apply]
  show V c main_v36 _ = V c main_v36 _
  congr 1
  funext a
  apply Fin.ext
  match a with
  | ⟨0, _⟩ => show win1_9.index t (0 : Fin 2) * 32 + 1 * x.val = x.val; rw [f9.1]; omega
  | ⟨1, _⟩ => show win1_9.index t (1 : Fin 2) * 128 + 1 * y.val = y.val; rw [f9.2]; omega

/-- Window 10's block is its whole array at every point. -/
theorem blk10 (c : Dev nD) (t : Fin cfg1.N) (x : Fin 1) (y : Fin 128) :
    (iblk1 V c 10 t : Vec Ideal S1x128 .f32) (ix2 x y) = (V c main_v38 : S1x128.Idx → EReal) (ix2 x y) := by
  obtain ⟨f0, f1, f2, f3, f4, f5, f6, f7, f8, f9, f10, f11, f12⟩ := idx_facts t
  unfold iblk1
  rw [View.read_apply]
  show V c main_v38 _ = V c main_v38 _
  congr 1
  funext a
  apply Fin.ext
  match a with
  | ⟨0, _⟩ => show win1_10.index t (0 : Fin 2) * 1 + 1 * x.val = x.val; rw [f10.1]; omega
  | ⟨1, _⟩ => show win1_10.index t (1 : Fin 2) * 128 + 1 * y.val = y.val; rw [f10.2]; omega

/-! ## The payloads of the blocks, as the whole-array functions at the block's place -/

/-- The first stored value of point t at (x, y) is `emb` of the arrays at (2000 t + x, y). -/
theorem pay2_blk (c : Dev nD) (t : Fin cfg1.N) (x : Fin 2000) (y : Fin 128) :
    k1_pay2 (F := Ideal) (iblk1 V c 0 t) (iblk1 V c 3 t) (iblk1 V c 1 t) (iblk1 V c 2 t) (iblk1 V c 4 t) (ix2 x y)
      = emb (V c main_v22_0) (V c main_v35) (V c main_v42) (V c main_arg7) (V c main_v39) (ix2 (row t x) y) := by
  refine (Pay.k1_pay2_apply _ _ _ _ _ x y).trans ?_
  simp only [blk0 V c t, blk1 V c t, blk2 V c t, blk3 V c t, blk4 V c t]
  rfl

/-- The value the loop carries, at (x, k) of point t: two layers on `emb` of the arrays at row 2000 t + x. -/
theorem pay3_blk (c : Dev nD) (t : Fin cfg1.N) (x : Fin 2000) (k : Fin 32) :
    k1_pay3 (F := Ideal) (iblk1 V c 0 t) (iblk1 V c 3 t) (iblk1 V c 1 t) (iblk1 V c 2 t) (iblk1 V c 4 t) (iblk1 V c 5 t) (iblk1 V c 6 t) (iblk1 V c 7 t) (ix2 x k)
      = ∑ j : Fin 64, max ((∑ l : Fin 128, emb (V c main_v22_0) (V c main_v35) (V c main_v42) (V c main_arg7) (V c main_v39) (ix2 (row t x) l)
            * (V c main_arg10 : S128x64.Idx → EReal) (ix2 l j)) + (V c main_v40 : S1x64.Idx → EReal) (ix2 0 j)) 0
          * (V c main_arg12 : S64x32.Idx → EReal) (ix2 j k) := by
  refine (Pay.k1_pay3_apply _ _ _ _ _ _ _ _ x k).trans ?_
  simp only [pay2_blk V c t, blk5 V c t, blk6 V c t, blk7 V c t]

/-- The bias row the loop carries beside it is its array's row. -/
theorem pay4_blk (c : Dev nD) (t : Fin cfg1.N) (x : Fin 1) (y : Fin 32) :
    k1_pay4 (F := Ideal) (iblk1 V c 8 t) (ix2 x y) = (V c main_v41 : S1x32.Idx → EReal) (ix2 x y) :=
  (congrFun (Pay.k1_pay4_eq _) _).trans (blk8 V c t x y)

/-- The last stored value of point t at (x, y) is `head` of `emb` of the arrays at (2000 t + x, y). -/
theorem pay1_blk (c : Dev nD) (t : Fin cfg1.N) (x : Fin 2000) (y : Fin 128) :
    k1_pay1 (F := Ideal) (k1_pay3 (iblk1 V c 0 t) (iblk1 V c 3 t) (iblk1 V c 1 t) (iblk1 V c 2 t) (iblk1 V c 4 t) (iblk1 V c 5 t) (iblk1 V c 6 t) (iblk1 V c 7 t)) (k1_pay4 (iblk1 V c 8 t)) (iblk1 V c 9 t) (iblk1 V c 10 t) (ix2 x y)
      = head (emb (V c main_v22_0) (V c main_v35) (V c main_v42) (V c main_arg7) (V c main_v39)) (V c main_arg10) (V c main_v40) (V c main_arg12) (V c main_v41) (V c main_v36) (V c main_v38) (ix2 (row t x) y) := by
  refine (Pay.k1_pay1_apply _ _ _ _ x y).trans ?_
  simp only [pay3_blk V c t, pay4_blk V c t, blk9 V c t, blk10 V c t]
  rfl

/-! ## What each point writes back -/

/-- Entry (x, y) of output window 11's block at point t is entry (2000 t + x, y) of its array. -/
theorem emb11 (t : Fin cfg1.N) (x : Fin 2000) (y : Fin 128) :
    ((cfg1.win 11).blk t).view.emb (ix2 x y) = (ix2 (row t x) y : S50000x128.Idx) := by
  obtain ⟨f0, f1, f2, f3, f4, f5, f6, f7, f8, f9, f10, f11, f12⟩ := idx_facts t
  funext a
  apply Fin.ext
  match a with
  | ⟨0, _⟩ => show win1_11.index t (0 : Fin 2) * 2000 + 1 * x.val = t.val * 2000 + x.val; rw [f11.1]; omega
  | ⟨1, _⟩ => show win1_11.index t (1 : Fin 2) * 128 + 1 * y.val = y.val; rw [f11.2]; omega

/-- An index of the array is in point t's block iff each coordinate is in the block's range on its axis. -/
theorem mem_blk11 (t : Fin cfg1.N) (i : S50000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v43_0).slice (win1_11.rect t)).set ↔ _
  rw [View.set_slice_whole, Rect.mem_set_unit]
  exact Iff.rfl

/-- Every row of the array is in some point's block: row r in point r / 2000's. -/
theorem cover11 (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [N_eq]; omega⟩, rfl⟩
  obtain ⟨f0, f1, f2, f3, f4, f5, f6, f7, f8, f9, f10, f11, f12⟩ := idx_facts t
  refine ⟨t, flush1_11 t, ?_⟩
  rw [mem_blk11]
  intro a
  match a with
  | ⟨0, _⟩ =>
    show win1_11.index t (0 : Fin 2) * 2000 ≤ (i 0).val ∧ (i 0).val < win1_11.index t (0 : Fin 2) * 2000 + 2000
    rw [f11.1, ht]; omega
  | ⟨1, _⟩ =>
    show win1_11.index t (1 : Fin 2) * 128 ≤ (i 1).val ∧ (i 1).val < win1_11.index t (1 : Fin 2) * 128 + 128
    rw [f11.2]; omega

/-- Entry (x, y) of output window 12's block at point t is entry (2000 t + x, y) of its array. -/
theorem emb12 (t : Fin cfg1.N) (x : Fin 2000) (y : Fin 128) :
    ((cfg1.win 12).blk t).view.emb (ix2 x y) = (ix2 (row t x) y : S50000x128.Idx) := by
  obtain ⟨f0, f1, f2, f3, f4, f5, f6, f7, f8, f9, f10, f11, f12⟩ := idx_facts t
  funext a
  apply Fin.ext
  match a with
  | ⟨0, _⟩ => show win1_12.index t (0 : Fin 2) * 2000 + 1 * x.val = t.val * 2000 + x.val; rw [f12.1]; omega
  | ⟨1, _⟩ => show win1_12.index t (1 : Fin 2) * 128 + 1 * y.val = y.val; rw [f12.2]; omega

/-- An index of the array is in point t's block iff each coordinate is in the block's range on its axis. -/
theorem mem_blk12 (t : Fin cfg1.N) (i : S50000x128.Idx) :
    i ∈ ((cfg1.win 12).blk t).view.set ↔ ∀ a : Fin 2, win1_12.index t a * S2000x128.size a ≤ (i a).val
      ∧ (i a).val < win1_12.index t a * S2000x128.size a + S2000x128.size a := by
  show i ∈ ((View.whole main_v43_1).slice (win1_12.rect t)).set ↔ _
  rw [View.set_slice_whole, Rect.mem_set_unit]
  exact Iff.rfl

/-- Every row of the array is in some point's block: row r in point r / 2000's. -/
theorem cover12 (i : S50000x128.Idx) :
    ∃ t : Fin cfg1.N, (cfg1.win 12).flush t = true ∧ i ∈ ((cfg1.win 12).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [N_eq]; omega⟩, rfl⟩
  obtain ⟨f0, f1, f2, f3, f4, f5, f6, f7, f8, f9, f10, f11, f12⟩ := idx_facts t
  refine ⟨t, flush1_12 t, ?_⟩
  rw [mem_blk12]
  intro a
  match a with
  | ⟨0, _⟩ =>
    show win1_12.index t (0 : Fin 2) * 2000 ≤ (i 0).val ∧ (i 0).val < win1_12.index t (0 : Fin 2) * 2000 + 2000
    rw [f12.1, ht]; omega
  | ⟨1, _⟩ =>
    show win1_12.index t (1 : Fin 2) * 128 ≤ (i 1).val ∧ (i 1).val < win1_12.index t (1 : Fin 2) * 128 + 128
    rw [f12.2]; omega

/-- Point t writes back, to the first output, block t of `emb` of the arrays the kernel reads. -/
theorem flushed11_eq (c : Dev nD) (t : Fin cfg1.N) :
    (dat1 V c).flushed 11 t = ((cfg1.win 11).blk t).view.read (Elt Ideal) (emb (V c main_v22_0) (V c main_v35) (V c main_v42) (V c main_arg7) (V c main_v39)) := by
  show (cfg1.win 11).cut (grid1.coords t) ((dat1 V c).after 11 t) = _
  rw [after1_11]
  unfold out1_11
  rw [View.canon_unit_zero hz]
  simp only [View.ld_unit_zero (S := S2000x256) hz, View.ld_unit_zero (S := S256x128) hz, View.ld_unit_zero (S := S2000x128) hz, View.ld_unit_zero (S := S2000x1) hz, View.ld_unit_zero (S := S1x128) hz]
  funext j
  obtain ⟨x, y, rfl⟩ : ∃ (x : Fin 2000) (y : Fin 128), j = ix2 x y := ⟨j 0, j 1, eq_ix2 j⟩
  rw [View.read_apply, emb11]
  exact pay2_blk V c t x y

/-- Point t writes back, to the second output, block t of `head` of `emb` of the arrays the kernel reads. -/
theorem flushed12_eq (c : Dev nD) (t : Fin cfg1.N) :
    (dat1 V c).flushed 12 t = ((cfg1.win 12).blk t).view.read (Elt Ideal) (head (emb (V c main_v22_0) (V c main_v35) (V c main_v42) (V c main_arg7) (V c main_v39)) (V c main_arg10) (V c main_v40) (V c main_arg12) (V c main_v41) (V c main_v36) (V c main_v38)) := by
  show (cfg1.win 12).cut (grid1.coords t) ((dat1 V c).after 12 t) = _
  rw [after1_12]
  unfold out1_12
  rw [View.canon_unit_zero hz]
  simp only [View.ld_unit_zero (S := S2000x256) hz, View.ld_unit_zero (S := S256x128) hz, View.ld_unit_zero (S := S2000x128) hz, View.ld_unit_zero (S := S2000x1) hz, View.ld_unit_zero (S := S1x128) hz, View.ld_unit_zero (S := S128x64) hz, View.ld_unit_zero (S := S1x64) hz, View.ld_unit_zero (S := S64x32) hz, View.ld_unit_zero (S := S1x32) hz, View.ld_unit_zero (S := S32x128) hz]
  funext j
  obtain ⟨x, y, rfl⟩ : ∃ (x : Fin 2000) (y : Fin 128), j = ix2 x y := ⟨j 0, j 1, eq_ix2 j⟩
  rw [View.read_apply, emb12]
  exact pay1_blk V c t x y

/-! ## The arrays after the run of the region -/

/-- The first output array ends as `emb` of the arrays the kernel reads, as the region finds them. -/
theorem final11 (c : Dev nD) :
    (dat1 V c).arrAt 11 cfg1.N = emb (V c main_v22_0) (V c main_v35) (V c main_v42) (V c main_arg7) (V c main_v39) :=
  (dat1 V c).arrAt_eq_of_cover 11 _ (fun t _ => flushed11_eq V c t) cover11

/-- The second output array ends as `head` of that and the three layers' weights and bias rows. -/
theorem final12 (c : Dev nD) :
    (dat1 V c).arrAt 12 cfg1.N = head (emb (V c main_v22_0) (V c main_v35) (V c main_v42) (V c main_arg7) (V c main_v39)) (V c main_arg10) (V c main_v40) (V c main_arg12) (V c main_v41) (V c main_v36) (V c main_v38) :=
  (dat1 V c).arrAt_eq_of_cover 12 _ (fun t _ => flushed12_eq V c t) cover12

end Cert.KernelIdeal.RegionTwo

end
-- ==== Proof.LibGather.lean ====
/-
  The host's gather with ONE gathered operand axis, read at a result index. The start indices are a column [U, 1]
  of integer words, one per result row; result row `u` reads operand row `idx[u, 0]`, read as a signed integer
  and clamped into `[0, N - 1]` (a negative word reads row 0, a word past the end the last row).

  Two layouts: an operand [N, C] with result [U, C] (whole rows are gathered: the result's second axis is the
  offset axis, of the full width), and an operand [N] with result [U] (single elements are gathered).
-/
import Idealize.ShloMosaic.PureOps.Ideal
import Idealize.ShloMosaic.Lib.ValueIdx

noncomputable section

namespace Idealize.ShloMosaic

open ValueIdx

/-! ## Whole rows gathered: operand [N, C], indices [U, 1], result [U, C] -/

section Rows
variable {α : Type} {N C U w : ℕ}

/-- THE ROW GATHER READ AT `(u, c)`: the operand at the row that index word `u` names (signed, clamped), column `c`. -/
theorem Host.gather_rows_apply (hN : 0 < N) (d : GatherDims ⟨2, ![N, C]⟩ ⟨2, ![U, 1]⟩ ⟨2, ![U, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![U, 1]⟩ w) (u : Fin U) (c : Fin C) :
    Host.gather d x idx (ix2 u c) = x (ix2 ⟨min (idx (ix2 u 0)).toInt.toNat (N - 1), by omega⟩ c) := by
  obtain ⟨od, cs, ob, sb, sm, iv, ss, wf⟩ := d
  dsimp only at hod hcs hob hsb hsm hiv hss
  subst hod hcs hob hsb hsm hiv hss
  unfold Host.gather
  refine congrArg x ?_
  funext a
  refine Fin.ext ?_
  match a with
  | ⟨0, _⟩ =>
    show GatherDims.start _ (ix2 u c) idx 0 + GatherDims.batchCoord _ (ix2 u c) 0 + GatherDims.offCoord _ (ix2 u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun k => min (idx k).toInt.toNat (N - 1)) ?_
    funext b; refine Fin.ext ?_
    match b with
    | ⟨0, _⟩ => rfl
    | ⟨1, _⟩ => rfl
  | ⟨1, _⟩ =>
    show GatherDims.start _ (ix2 u c) idx 1 + GatherDims.batchCoord _ (ix2 u c) 1 + GatherDims.offCoord _ (ix2 u c) 1 = c.val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add, Nat.add_zero]
    rfl

end Rows

/-! ## Single elements gathered: operand [N], indices [U, 1], result [U] -/

section Elements
variable {α : Type} {N U w : ℕ}

/-- THE ELEMENT GATHER READ AT `u`: the operand at the position that index word `u` names (signed, clamped). -/
theorem Host.gather_elts_apply (hN : 0 < N) (d : GatherDims ⟨1, ![N]⟩ ⟨2, ![U, 1]⟩ ⟨1, ![U]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (x : (⟨1, ![N]⟩ : Shape).Idx → α) (idx : IVec ⟨2, ![U, 1]⟩ w) (u : Fin U) :
    Host.gather d x idx (ix1 u) = x (ix1 ⟨min (idx (ix2 u 0)).toInt.toNat (N - 1), by omega⟩) := by
  obtain ⟨od, cs, ob, sb, sm, iv, ss, wf⟩ := d
  dsimp only at hod hcs hob hsb hsm hiv hss
  subst hod hcs hob hsb hsm hiv hss
  unfold Host.gather
  refine congrArg x ?_
  funext a
  obtain rfl : a = 0 := Subsingleton.elim _ _
  refine Fin.ext ?_
  show GatherDims.start _ (ix1 u) idx 0 + GatherDims.batchCoord _ (ix1 u) 0 + GatherDims.offCoord _ (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun k => min (idx k).toInt.toNat (N - 1)) ?_
  funext b; refine Fin.ext ?_
  match b with
  | ⟨0, _⟩ => rfl
  | ⟨1, _⟩ => rfl

end Elements

end Idealize.ShloMosaic

end
-- ==== Proof.LibScatterAdd.lean ====
/-
  The host's accumulating float scatter with ONE scattered operand axis, read at an operand index at the ideal
  values. The scatter indices are a column [U, 1] of integer words, one per update row; update row `u` is added
  into operand row `idx[u, 0]` (read as a signed integer), and is dropped when that is no row of the operand.
  So the result at row `r` is the operand's element plus the sum, over the update rows `u` whose index word is
  `r`, of the update's element (in the same column, when the rows have columns).

  Two layouts: an operand [S, C] with updates [U, C] (whole rows are scattered: the update's second axis is the
  window axis), and an operand [S] with updates [U] (single elements are scattered: no window axis).
-/
import Idealize.ShloMosaic.PureOps.Ideal
import Idealize.ShloMosaic.Lib.ValueIdx

noncomputable section

open scoped BigOperators

namespace Idealize.ShloMosaic

open ValueIdx

/-- An update index lands on the operand index `i` exactly when, on every operand axis, its window's start plus
    its window coordinate is `i`'s coordinate. -/
theorem ScatterDims.resultIdx?_eq_some_iff {s si u : Shape} (d : ScatterDims s si u) {w : ℕ} (j : u.Idx) (idx : IVec si w)
    (i : s.Idx) : d.resultIdx? j idx = some i ↔ ∀ a, d.start j idx a + (d.window j a : ℤ) = ((i a).val : ℤ) := by
  unfold ScatterDims.resultIdx?
  constructor
  · intro h a
    split at h
    · next hall =>
      have e := congrFun (Option.some.inj h) a
      have ev : (d.start j idx a + (d.window j a : ℤ)).toNat = (i a).val := congrArg Fin.val e
      have := (hall a).1
      omega
    · exact absurd h (by simp)
  · intro h
    have hall : ∀ a, 0 ≤ d.start j idx a + (d.window j a : ℤ) ∧ d.start j idx a + (d.window j a : ℤ) < s.size a := by
      intro a
      have := (i a).isLt
      rw [h a]
      exact ⟨Int.natCast_nonneg _, by exact_mod_cast this⟩
    rw [dif_pos hall]
    refine congrArg some (funext fun a => Fin.ext ?_)
    show (d.start j idx a + (d.window j a : ℤ)).toNat = (i a).val
    rw [h a, Int.toNat_natCast]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Whole rows scattered: operand [S, C], indices [U, 1], updates [U, C] -/

section Rows
variable {S C U w : ℕ}

private theorem rows_sKept (wf) :
    (ScatterDims.mk (s := ⟨2, ![S, C]⟩) (si := ⟨2, ![U, 1]⟩) (u := ⟨2, ![U, C]⟩) [1] [0] [0] 1 wf).sKept = [1] := rfl

private theorem rows_start0 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem rows_start1 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 1 = 0 := by
  unfold ScatterDims.start
  rw [dif_neg (fun h => absurd (congrArg Fin.val (List.mem_singleton.mp h)) Nat.one_ne_zero)]

private theorem rows_window0 (wf) (u : Fin U) (c : Fin C) :
    (ScatterDims.mk (s := ⟨2, ![S, C]⟩) (si := ⟨2, ![U, 1]⟩) (u := ⟨2, ![U, C]⟩) [1] [0] [0] 1 wf).window (ix2 u c) 0 = 0 := by
  unfold ScatterDims.window
  rw [dif_neg (by rw [rows_sKept]; exact fun h => absurd (congrArg Fin.val (List.mem_singleton.mp h)) Nat.zero_ne_one)]

private theorem rows_window1 (wf) (u : Fin U) (c : Fin C) :
    (ScatterDims.mk (s := ⟨2, ![S, C]⟩) (si := ⟨2, ![U, 1]⟩) (u := ⟨2, ![U, C]⟩) [1] [0] [0] 1 wf).window (ix2 u c) 1 = c.val := by
  unfold ScatterDims.window
  rw [dif_pos (by rw [rows_sKept]; exact List.mem_singleton.mpr rfl)]
  rfl

/-- Update element `(u, c)` lands on operand element `(r, c')` exactly when row `u`'s index word is `r` and the columns agree. -/
theorem ScatterDims.rows_resultIdx?_eq_some_iff (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (idx : IVec ⟨2, ![U, 1]⟩ w) (u : Fin U) (c : Fin C) (r : Fin S) (c' : Fin C) :
    d.resultIdx? (ix2 u c) idx = some (ix2 r c') ↔ (idx (ix2 u 0)).toInt = (r.val : ℤ) ∧ c = c' := by
  obtain ⟨uw, iw, sd, iv, wf⟩ := d
  dsimp only at huw hiw hsd hiv
  subst huw hiw hsd hiv
  rw [ScatterDims.resultIdx?_eq_some_iff, Fin.forall_fin_two, rows_start0, rows_start1, rows_window0, rows_window1]
  show (idx (ix2 u 0)).toInt + ((0 : ℕ) : ℤ) = (r.val : ℤ) ∧ (0 : ℤ) + (c.val : ℤ) = (c'.val : ℤ) ↔ _
  constructor
  · rintro ⟨h0, h1⟩
    exact ⟨by omega, Fin.ext (by omega)⟩
  · rintro ⟨h0, rfl⟩
    exact ⟨by omega, by omega⟩

/-- THE ROW SCATTER READ AT `(r, c)`: the operand's element plus the sum over the update rows whose index word is `r`
    of the update's element in column `c`. -/
theorem Host.scatterAdd_rows_apply {φ : FTy} (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (x : FVec Ideal ⟨2, ![S, C]⟩ φ) (idx : IVec ⟨2, ![U, 1]⟩ w)
    (upd : FVec Ideal ⟨2, ![U, C]⟩ φ) (r : Fin S) (c : Fin C) :
    Host.scatterAdd d x idx upd (ix2 r c)
      = x (ix2 r c) + ∑ u : Fin U, if (idx (ix2 u 0)).toInt = (r.val : ℤ) then upd (ix2 u c) else 0 := by
  unfold Host.scatterAdd
  rw [Ideal.hostScatterAdd_def]
  unfold Ideal.hostScatterAdd
  refine congrArg (x (ix2 r c) + ·) ?_
  rw [Finset.sum_filter, sum_idx2]
  refine Finset.sum_congr rfl fun u _ => ?_
  by_cases hu : (idx (ix2 u 0)).toInt = (r.val : ℤ)
  · rw [if_pos hu]
    rw [Finset.sum_eq_single c]
    · rw [if_pos ((ScatterDims.rows_resultIdx?_eq_some_iff d huw hiw hsd hiv idx u c r c).2 ⟨hu, rfl⟩)]
    · intro c' _ hc'
      rw [if_neg fun h => hc' ((ScatterDims.rows_resultIdx?_eq_some_iff d huw hiw hsd hiv idx u c' r c).1 h).2]
    · intro h; exact absurd (Finset.mem_univ c) h
  · rw [if_neg hu]
    refine Finset.sum_eq_zero fun c' _ => ?_
    rw [if_neg fun h => hu ((ScatterDims.rows_resultIdx?_eq_some_iff d huw hiw hsd hiv idx u c' r c).1 h).1]

end Rows

/-! ## Single elements scattered: operand [S], indices [U, 1], updates [U] -/

section Elements
variable {S U w : ℕ}

private theorem elts_sKept (wf) :
    (ScatterDims.mk (s := ⟨1, ![S]⟩) (si := ⟨2, ![U, 1]⟩) (u := ⟨1, ![U]⟩) [] [0] [0] 1 wf).sKept = [] := rfl

private theorem elts_start0 (wf) (idx : IVec ⟨2, ![U, 1]⟩ w) (u : Fin U) :
    (ScatterDims.mk (s := ⟨1, ![S]⟩) (si := ⟨2, ![U, 1]⟩) (u := ⟨1, ![U]⟩) [] [0] [0] 1 wf).start (ix1 u) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem elts_window0 (wf) (u : Fin U) :
    (ScatterDims.mk (s := ⟨1, ![S]⟩) (si := ⟨2, ![U, 1]⟩) (u := ⟨1, ![U]⟩) [] [0] [0] 1 wf).window (ix1 u) 0 = 0 := by
  unfold ScatterDims.window
  rw [dif_neg (by rw [elts_sKept]; exact List.not_mem_nil)]

/-- Update element `u` lands on operand element `r` exactly when its index word is `r`. -/
theorem ScatterDims.elts_resultIdx?_eq_some_iff (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (idx : IVec ⟨2, ![U, 1]⟩ w) (u : Fin U) (r : Fin S) :
    d.resultIdx? (ix1 u) idx = some (ix1 r) ↔ (idx (ix2 u 0)).toInt = (r.val : ℤ) := by
  obtain ⟨uw, iw, sd, iv, wf⟩ := d
  dsimp only at huw hiw hsd hiv
  subst huw hiw hsd hiv
  rw [ScatterDims.resultIdx?_eq_some_iff]
  constructor
  · intro h
    have h0 := h 0
    rw [elts_start0, elts_window0] at h0
    have : ((ix1 r : (⟨1, ![S]⟩ : Shape).Idx) 0).val = r.val := rfl
    omega
  · intro h a
    obtain rfl : a = 0 := Subsingleton.elim _ _
    rw [elts_start0, elts_window0]
    have : ((ix1 r : (⟨1, ![S]⟩ : Shape).Idx) 0).val = r.val := rfl
    omega

/-- THE ELEMENT SCATTER READ AT `r`: the operand's element plus the sum of the updates whose index word is `r`. -/
theorem Host.scatterAdd_elts_apply {φ : FTy} (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (x : FVec Ideal ⟨1, ![S]⟩ φ) (idx : IVec ⟨2, ![U, 1]⟩ w)
    (upd : FVec Ideal ⟨1, ![U]⟩ φ) (r : Fin S) :
    Host.scatterAdd d x idx upd (ix1 r)
      = x (ix1 r) + ∑ u : Fin U, if (idx (ix2 u 0)).toInt = (r.val : ℤ) then upd (ix1 u) else 0 := by
  unfold Host.scatterAdd
  rw [Ideal.hostScatterAdd_def]
  unfold Ideal.hostScatterAdd
  refine congrArg (x (ix1 r) + ·) ?_
  rw [Finset.sum_filter, sum_idx1]
  refine Finset.sum_congr rfl fun u _ => ?_
  by_cases hu : (idx (ix2 u 0)).toInt = (r.val : ℤ)
  · rw [if_pos hu, if_pos ((ScatterDims.elts_resultIdx?_eq_some_iff d huw hiw hsd hiv idx u r).2 hu)]
  · rw [if_neg hu, if_neg fun h => hu ((ScatterDims.elts_resultIdx?_eq_some_iff d huw hiw hsd hiv idx u r).1 h)]

end Elements

end Idealize.ShloMosaic

end
-- ==== Proof.LibAggregate.lean ====
/-
  A general lemma: gather rows, weigh them, scatter-add them — read at an entry, over the extended reals.

  For an operand `Y` of `N` rows and `C` columns, `U` source words, `U` destination words and a [U, C] array of
  weights: gathering row `src e` of `Y` for every `e` (the word read signed and clamped into [0, N-1]), multiplying
  elementwise by the weights, and scattering with addition into `Z` at the destination words leaves at `(v, k)`
      Z[v,k] + ∑ₑ [dst e = v] Y[row(src e), k] · wt[e,k];
  a destination word outside [0, N-1] contributes to no row. It holds for any column count and any gather / scatter
  records of the one-gathered-axis, index-column form (their fields are hypotheses).
  It is stated over the two lemmas for a row gather and a row scatter-add read at an entry (the modules imported first).
-/
import proofs.«160259_j20469814132750_2_alg».proof.Proof.LibGather
import proofs.«160259_j20469814132750_2_alg».proof.Proof.LibScatterAdd
import Idealize.ShloMosaic.Lib.ValueIdx
import Idealize.ShloMosaic.PureOps.Ideal.Laws

noncomputable section

open scoped BigOperators

namespace Cert.LibAggregate

open Idealize.ShloMosaic Idealize.ShloMosaic.ValueIdx

/-- A row gather, multiplied elementwise by weights, scatter-added by destination words into `Z`, read at `(v, k)`:
    `Z`'s element plus the sum over the update rows `e` whose destination word is `v` of the operand at the row
    the source word names (signed, clamped), column `k`, times the weight. -/
theorem gatherMulScatter_apply {N C U : ℕ} (hN : 0 < N)
    (dg : GatherDims ⟨2, ![N, C]⟩ ⟨2, ![U, 1]⟩ ⟨2, ![U, C]⟩)
    (hod : dg.offsetDims = [1]) (hcs : dg.collapsedSliceDims = [0]) (hob : dg.operandBatchingDims = [])
    (hsb : dg.startIndicesBatchingDims = []) (hsm : dg.startIndexMap = [0]) (hiv : dg.indexVectorDim = 1)
    (hss : dg.sliceSizes = ![1, C])
    (ds : ScatterDims ⟨2, ![N, C]⟩ ⟨2, ![U, 1]⟩ ⟨2, ![U, C]⟩)
    (huw : ds.updateWindowDims = [1]) (hiw : ds.insertedWindowDims = [0]) (hsd : ds.scatterDimsToOperandDims = [0])
    (hiv' : ds.indexVectorDim = 1)
    (Z Y : FVec Ideal ⟨2, ![N, C]⟩ .f32) (src dst : IVec ⟨2, ![U, 1]⟩ 32) (wt : FVec Ideal ⟨2, ![U, C]⟩ .f32)
    (v : Fin N) (k : Fin C) :
    Host.scatterAdd ds Z dst (mulf (Host.gather dg Y src) wt) (ix2 v k)
      = Z (ix2 v k) + ∑ e : Fin U, if (dst (ix2 e 0)).toInt = (v.val : ℤ)
          then Y (ix2 ⟨min (src (ix2 e 0)).toInt.toNat (N - 1), by omega⟩ k) * wt (ix2 e k) else 0 := by
  rw [Host.scatterAdd_rows_apply ds huw hiw hsd hiv']
  refine congrArg (Z (ix2 v k) + ·) (Finset.sum_congr rfl fun e _ => ?_)
  refine congrArg (fun t => if (dst (ix2 e 0)).toInt = (v.val : ℤ) then t else 0) ?_
  show FloatOps.mulf (Host.gather dg Y src (ix2 e k)) (wt (ix2 e k)) = _
  rw [Host.gather_rows_apply hN dg hod hcs hob hsb hsm hiv hss, Ideal.mulf_def]

end Cert.LibAggregate

end
-- ==== Proof.RefRead.lean ====
/-
  The reference program's stages read at one index, at the ideal values. The two aggregations (gather the source
  rows, weigh them by the edge weights, scatter-add them by the destination words) are read through one lemma that
  holds for any column count; the dense stages are read by chaining the generated per-stage lemmas.
-/
import proofs.«160259_j20469814132750_2_alg».proof.Proof.Gen.ReferenceIdeal.Read
import proofs.«160259_j20469814132750_2_alg».proof.Proof.LibGather
import proofs.«160259_j20469814132750_2_alg».proof.Proof.LibScatterAdd
import proofs.«160259_j20469814132750_2_alg».proof.Proof.LibAggregate
import Idealize.ShloMosaic.Lib.ValueIdx
import Idealize.ShloMosaic.Lib.Pipeline.Value
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Read

/-! ## The gathered row of a source word -/

/-- The source word as the gather receives it: a negative word is shifted up by the row count (the printed
    compare / add / select), any other word is kept. -/
def rowWord (s : BitVec 32) : BitVec 32 :=
  Scalar.select (IntOp.cmpi .slt s 0#32) (IntOp.addi s 50000#32) s

/-- The shifted word, spelled out: a word that reads negative has the row count added (wrapping), any other is kept. -/
theorem rowWord_eq (s : BitVec 32) : rowWord s = if s.slt 0#32 then s + 50000#32 else s := by
  unfold rowWord Scalar.select IntOp.cmpi IntOp.addi
  cases h : s.slt 0#32 <;> rfl

/-- The row a source word names: the shifted word read as a signed integer and clamped into `[0, 49999]`. -/
def row (s : BitVec 32) : Fin 50000 := ⟨min (rowWord s).toInt.toNat (50000 - 1), by omega⟩

/-- A clamped signed read of a word that is the shifted source word is that source word's row. -/
theorem row_of_word {w s : BitVec 32} (h : w = rowWord s) (hlt : min w.toInt.toNat (50000 - 1) < 50000) :
    (⟨min w.toInt.toNat (50000 - 1), hlt⟩ : Fin 50000) = row s := by
  subst h; rfl

/-! ## Gather rows, weigh them, scatter-add them: one lemma for any column count -/

export Cert.LibAggregate (gatherMulScatter_apply)

/-! ## The reference's two aggregations -/

/-- Layer 2's source words, as the gather receives them. -/
theorem val_main_v33_word (x1 : (⟨S800000, .i32⟩ : BufTy).Contents (Elt Ideal)) (e : Fin 800000) :
    val_main_v33 (F := Ideal) x1 (ix2 e 0) = rowWord (x1 (ix1 e)) := by
  rw [val_main_v33_apply]
  have hi : idx_main_v33 (ix2 e (0 : Fin 1)) = ix1 e := funext fun a => by match a with | ⟨0, _⟩ => rfl
  rw [hi, val_main_v32_apply, val_main_v29_apply, val_main_v31_apply, val_main_v28_apply, val_main_v30_apply,
    val_main_c_4_apply, val_main_c_5_apply]
  rfl

/-- Layer 1's source words, as the gather receives them. -/
theorem val_main_v5_word (x1 : (⟨S800000, .i32⟩ : BufTy).Contents (Elt Ideal)) (e : Fin 800000) :
    val_main_v5 (F := Ideal) x1 (ix2 e 0) = rowWord (x1 (ix1 e)) := by
  rw [val_main_v5_apply]
  have hi : idx_main_v5 (ix2 e (0 : Fin 1)) = ix1 e := funext fun a => by match a with | ⟨0, _⟩ => rfl
  rw [hi, val_main_v4_apply, val_main_v1_apply, val_main_v3_apply, val_main_v0_apply, val_main_v2_apply,
    val_main_c_apply, val_main_c_0_apply]
  rfl

/-- LAYER 2'S AGGREGATED SUM at `(v, k)`: the zero constant plus the sum over the edges into `v` of layer 1's output at
    the edge's source row, column `k`, times the edge weight. -/
theorem val_main_v40_read (x0 : (⟨S50000x64, .f32⟩ : BufTy).Contents (Elt Ideal))
    (x1 x2 : (⟨S800000, .i32⟩ : BufTy).Contents (Elt Ideal)) (x3 : (⟨S800000, .f32⟩ : BufTy).Contents (Elt Ideal))
    (x4 x5 : (⟨S64x256, .f32⟩ : BufTy).Contents (Elt Ideal)) (x6 : (⟨S256, .f32⟩ : BufTy).Contents (Elt Ideal))
    (v : Fin 50000) (k : Fin 256) :
    val_main_v40 (F := Ideal) x0 x1 x2 x3 x4 x5 x6 (ix2 v k)
      = Ideal.ofBits .f32 0x00000000#32 + ∑ e : Fin 800000, if (x2 (ix1 e)).toInt = (v.val : ℤ)
          then val_main_v27 (F := Ideal) x0 x1 x2 x3 x4 x5 x6 (ix2 (row (x1 (ix1 e))) k) * x3 (ix1 e) else 0 := by
  unfold val_main_v40 val_main_v37 val_main_v34
  generalize val_main_v27 (F := Ideal) x0 x1 x2 x3 x4 x5 x6 = Y
  refine (gatherMulScatter_apply (by decide) gather_S50000x256_S800000x1_S800000x256_1_0_n_n_0_1_1256 rfl rfl rfl rfl rfl rfl rfl
    scatter_S50000x256_S800000x1_S800000x256_1_0_0_1 rfl rfl rfl rfl _ Y _ _ _ v k).trans ?_
  refine congrArg₂ (· + ·) ?_ (Finset.sum_congr rfl fun e _ => ?_)
  · rw [val_main_v38_apply, val_main_cst_6_apply]; rfl
  · have h39 : val_main_v39 (F := Ideal) x2 (ix2 e 0) = x2 (ix1 e) := by
      rw [val_main_v39_apply]
      exact congrArg x2 (funext fun a => by match a with | ⟨0, _⟩ => rfl)
    have h36 : val_main_v36 (F := Ideal) x3 (ix2 e k) = x3 (ix1 e) := by
      rw [val_main_v36_apply, val_main_v35_apply]
      exact congrArg x3 (funext fun a => by match a with | ⟨0, _⟩ => rfl)
    rw [h39, h36, row_of_word (val_main_v33_word x1 e)]

/-- LAYER 1'S AGGREGATED SUM at `(v, k)`: the zero constant plus the sum over the edges into `v` of the features at the
    edge's source row, column `k`, times the edge weight. -/
theorem val_main_v12_read (x0 : (⟨S50000x64, .f32⟩ : BufTy).Contents (Elt Ideal))
    (x1 x2 : (⟨S800000, .i32⟩ : BufTy).Contents (Elt Ideal)) (x3 : (⟨S800000, .f32⟩ : BufTy).Contents (Elt Ideal))
    (v : Fin 50000) (k : Fin 64) :
    val_main_v12 (F := Ideal) x0 x1 x2 x3 (ix2 v k)
      = Ideal.ofBits .f32 0x00000000#32 + ∑ e : Fin 800000, if (x2 (ix1 e)).toInt = (v.val : ℤ)
          then x0 (ix2 (row (x1 (ix1 e))) k) * x3 (ix1 e) else 0 := by
  unfold val_main_v12 val_main_v9 val_main_v6
  refine (gatherMulScatter_apply (by decide) gather_S50000x64_S800000x1_S800000x64_1_0_n_n_0_1_164 rfl rfl rfl rfl rfl rfl rfl
    scatter_S50000x64_S800000x1_S800000x64_1_0_0_1 rfl rfl rfl rfl _ x0 _ _ _ v k).trans ?_
  refine congrArg₂ (· + ·) ?_ (Finset.sum_congr rfl fun e _ => ?_)
  · rw [val_main_v10_apply, val_main_cst_apply]; rfl
  · have h11 : val_main_v11 (F := Ideal) x2 (ix2 e 0) = x2 (ix1 e) := by
      rw [val_main_v11_apply]
      exact congrArg x2 (funext fun a => by match a with | ⟨0, _⟩ => rfl)
    have h8 : val_main_v8 (F := Ideal) x3 (ix2 e k) = x3 (ix1 e) := by
      rw [val_main_v8_apply, val_main_v7_apply]
      exact congrArg x3 (funext fun a => by match a with | ⟨0, _⟩ => rfl)
    rw [h11, h8, row_of_word (val_main_v5_word x1 e)]

/-! ## The dense stages -/

/-- LAYER 1'S OUTPUT at `(n, j)`: the rectified sum of the node's own features through `W1_self`, its mean-aggregated
    neighbour features through `W1_neigh`, and the bias. -/
theorem val_main_v27_read (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (n : Fin 50000) (j : Fin 256) :
    val_main_v27 (F := Ideal) x0 x1 x2 x3 x4 x5 x6 (ix2 n j)
      = max (((∑ k : Fin 64, x0 (ix2 n k) * x4 (ix2 k j))
          + (∑ k : Fin 64, Ideal.div (val_main_v12 (F := Ideal) x0 x1 x2 x3 (ix2 n k)) (val_main_v17 (F := Ideal) x2 (ix1 n))
              * x5 (ix2 k j))) + x6 (ix1 j)) 0 := by
  have hl21 : ∀ k : Fin 64, lidx_main_v21 (ix2 n j) k = ix2 n k :=
    fun k => funext fun a => by match a with | ⟨0, _⟩ => rfl | ⟨1, _⟩ => rfl
  have hr21 : ∀ k : Fin 64, ridx_main_v21 (ix2 n j) k = ix2 k j :=
    fun k => funext fun a => by match a with | ⟨0, _⟩ => rfl | ⟨1, _⟩ => rfl
  have hl22 : ∀ k : Fin 64, lidx_main_v22 (ix2 n j) k = ix2 n k :=
    fun k => funext fun a => by match a with | ⟨0, _⟩ => rfl | ⟨1, _⟩ => rfl
  have hr22 : ∀ k : Fin 64, ridx_main_v22 (ix2 n j) k = ix2 k j :=
    fun k => funext fun a => by match a with | ⟨0, _⟩ => rfl | ⟨1, _⟩ => rfl
  have h18 : ∀ k : Fin 64, idx_main_v18 (idx_main_v19 (ix2 n k)) = ix1 n :=
    fun k => funext fun a => by match a with | ⟨0, _⟩ => rfl
  have h24 : idx_main_v24 (idx_main_v25 (ix2 n j)) = ix1 j :=
    funext fun a => by match a with | ⟨0, _⟩ => rfl
  rw [val_main_v27_apply, val_main_v26_apply, val_main_v23_apply, val_main_v21_apply, val_main_v22_apply,
    val_main_v25_apply, val_main_v24_apply, val_main_call1_v0_apply, val_main_call1_cst_apply, h24]
  rw [Ideal.maximumf_def, Ideal.addf_def, Ideal.addf_def, Ideal.ofBits_def, Ideal.ofBits_zero_f32]
  refine congrArg (fun t => max t 0) (congrArg (· + x6 (ix1 j)) (congrArg₂ (· + ·) ?_ ?_))
  · exact Finset.sum_congr rfl fun k _ => by rw [hl21 k, hr21 k]
  · refine Finset.sum_congr rfl fun k _ => ?_
    rw [hl22 k, hr22 k, val_main_v20_apply, val_main_v19_apply, val_main_v18_apply, h18 k, Ideal.hostDivf_def]

/-- THE EMBEDDINGS at `(v, c)`: layer 1's output through `W2_self`, its mean-aggregated neighbours through `W2_neigh`,
    and the bias (no rectifier on this layer). -/
theorem val_main_v54_read (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (v : Fin 50000) (c : Fin 128) :
    val_main_v54 (F := Ideal) x0 x1 x2 x3 x4 x5 x6 x7 x8 x9 (ix2 v c)
      = ((∑ k : Fin 256, val_main_v27 (F := Ideal) x0 x1 x2 x3 x4 x5 x6 (ix2 v k) * x7 (ix2 k c))
          + (∑ k : Fin 256, Ideal.div (val_main_v40 (F := Ideal) x0 x1 x2 x3 x4 x5 x6 (ix2 v k)) (val_main_v45 (F := Ideal) x2 (ix1 v))
              * x8 (ix2 k c))) + x9 (ix1 c) := by
  have hl49 : ∀ k : Fin 256, lidx_main_v49 (ix2 v c) k = ix2 v k := fun k => funext fun a => by match a with | ⟨0, _⟩ => rfl | ⟨1, _⟩ => rfl
  have hr49 : ∀ k : Fin 256, ridx_main_v49 (ix2 v c) k = ix2 k c := fun k => funext fun a => by match a with | ⟨0, _⟩ => rfl | ⟨1, _⟩ => rfl
  have hl50 : ∀ k : Fin 256, lidx_main_v50 (ix2 v c) k = ix2 v k := fun k => funext fun a => by match a with | ⟨0, _⟩ => rfl | ⟨1, _⟩ => rfl
  have hr50 : ∀ k : Fin 256, ridx_main_v50 (ix2 v c) k = ix2 k c := fun k => funext fun a => by match a with | ⟨0, _⟩ => rfl | ⟨1, _⟩ => rfl
  have h46 : ∀ k : Fin 256, idx_main_v46 (idx_main_v47 (ix2 v k)) = ix1 v := fun k => funext fun a => by match a with | ⟨0, _⟩ => rfl
  have h52 : idx_main_v52 (idx_main_v53 (ix2 v c)) = ix1 c :=
    funext fun a => by match a with | ⟨0, _⟩ => rfl
  rw [val_main_v54_apply, val_main_v51_apply, val_main_v49_apply, val_main_v50_apply, val_main_v53_apply,
    val_main_v52_apply, h52, Ideal.addf_def, Ideal.addf_def]
  refine congrArg (· + x9 (ix1 c)) (congrArg₂ (· + ·) ?_ ?_)
  · exact Finset.sum_congr rfl fun k _ => by rw [hl49 k, hr49 k]
  · refine Finset.sum_congr rfl fun k _ => ?_
    rw [hl50 k, hr50 k, val_main_v48_apply, val_main_v47_apply, val_main_v46_apply, h46 k, Ideal.hostDivf_def]

/-! ### The head, one dense layer at a time -/

/-- The head's first hidden layer at `(v, j)`. -/
theorem val_main_v59_read (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (x10 : (⟨S128x64, .f32⟩ : BufTy).Contents (Elt Ideal))
    (x11 : (⟨S64, .f32⟩ : BufTy).Contents (Elt Ideal))
    (v : Fin 50000) (j : Fin 64) :
    val_main_v59 (F := Ideal) x0 x1 x2 x3 x4 x5 x6 x7 x8 x9 x10 x11 (ix2 v j)
      = max ((∑ i : Fin 128, val_main_v54 (F := Ideal) x0 x1 x2 x3 x4 x5 x6 x7 x8 x9 (ix2 v i) * x10 (ix2 i j)) + x11 (ix1 j)) 0 := by
  have hl : ∀ k : Fin 128, lidx_main_v55 (ix2 v j) k = ix2 v k := fun k => funext fun a => by match a with | ⟨0, _⟩ => rfl | ⟨1, _⟩ => rfl
  have hr : ∀ k : Fin 128, ridx_main_v55 (ix2 v j) k = ix2 k j := fun k => funext fun a => by match a with | ⟨0, _⟩ => rfl | ⟨1, _⟩ => rfl
  have hb : idx_main_v56 (idx_main_v57 (ix2 v j)) = ix1 j :=
    funext fun a => by match a with | ⟨0, _⟩ => rfl
  rw [val_main_v59_apply, val_main_v58_apply, val_main_v55_apply, val_main_v57_apply, val_main_v56_apply, hb,
    val_main_call3_v0_apply, val_main_call3_cst_apply, Ideal.maximumf_def, Ideal.addf_def, Ideal.ofBits_def,
    Ideal.ofBits_zero_f32]
  refine congrArg (fun t => max (t + x11 (ix1 j)) 0) (Finset.sum_congr rfl fun k _ => ?_)
  rw [hl k, hr k]

/-- The head's second hidden layer at `(v, k)`. -/
theorem val_main_v64_read (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (x10 : (⟨S128x64, .f32⟩ : BufTy).Contents (Elt Ideal))
    (x11 : (⟨S64, .f32⟩ : BufTy).Contents (Elt Ideal))
    (x12 : (⟨S64x32, .f32⟩ : BufTy).Contents (Elt Ideal))
    (x13 : (⟨S32, .f32⟩ : BufTy).Contents (Elt Ideal))
    (v : Fin 50000) (k : Fin 32) :
    val_main_v64 (F := Ideal) x0 x1 x2 x3 x4 x5 x6 x7 x8 x9 x10 x11 x12 x13 (ix2 v k)
      = max ((∑ j : Fin 64, val_main_v59 (F := Ideal) x0 x1 x2 x3 x4 x5 x6 x7 x8 x9 x10 x11 (ix2 v j) * x12 (ix2 j k)) + x13 (ix1 k)) 0 := by
  have hl : ∀ j : Fin 64, lidx_main_v60 (ix2 v k) j = ix2 v j := fun k => funext fun a => by match a with | ⟨0, _⟩ => rfl | ⟨1, _⟩ => rfl
  have hr : ∀ j : Fin 64, ridx_main_v60 (ix2 v k) j = ix2 j k := fun k => funext fun a => by match a with | ⟨0, _⟩ => rfl | ⟨1, _⟩ => rfl
  have hb : idx_main_v61 (idx_main_v62 (ix2 v k)) = ix1 k :=
    funext fun a => by match a with | ⟨0, _⟩ => rfl
  rw [val_main_v64_apply, val_main_v63_apply, val_main_v60_apply, val_main_v62_apply, val_main_v61_apply, hb,
    val_main_call4_v0_apply, val_main_call4_cst_apply, Ideal.maximumf_def, Ideal.addf_def, Ideal.ofBits_def,
    Ideal.ofBits_zero_f32]
  refine congrArg (fun t => max (t + x13 (ix1 k)) 0) (Finset.sum_congr rfl fun j _ => ?_)
  rw [hl j, hr j]

/-- The head's output layer at `(v, c)`, over the second hidden layer. -/
theorem val_main_v68_read_v64 (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (x10 : (⟨S128x64, .f32⟩ : BufTy).Contents (Elt Ideal))
    (x11 : (⟨S64, .f32⟩ : BufTy).Contents (Elt Ideal))
    (x12 : (⟨S64x32, .f32⟩ : BufTy).Contents (Elt Ideal))
    (x13 : (⟨S32, .f32⟩ : BufTy).Contents (Elt Ideal))
    (x14 : (⟨S32x10, .f32⟩ : BufTy).Contents (Elt Ideal))
    (x15 : (⟨S10, .f32⟩ : BufTy).Contents (Elt Ideal))
    (v : Fin 50000) (c : Fin 10) :
    val_main_v68 (F := Ideal) x0 x1 x2 x3 x4 x5 x6 x7 x8 x9 x10 x11 x12 x13 x14 x15 (ix2 v c)
      = (∑ k : Fin 32, val_main_v64 (F := Ideal) x0 x1 x2 x3 x4 x5 x6 x7 x8 x9 x10 x11 x12 x13 (ix2 v k) * x14 (ix2 k c)) + x15 (ix1 c) := by
  have hl : ∀ k : Fin 32, lidx_main_v65 (ix2 v c) k = ix2 v k := fun k => funext fun a => by match a with | ⟨0, _⟩ => rfl | ⟨1, _⟩ => rfl
  have hr : ∀ k : Fin 32, ridx_main_v65 (ix2 v c) k = ix2 k c := fun k => funext fun a => by match a with | ⟨0, _⟩ => rfl | ⟨1, _⟩ => rfl
  have hb : idx_main_v66 (idx_main_v67 (ix2 v c)) = ix1 c :=
    funext fun a => by match a with | ⟨0, _⟩ => rfl
  rw [val_main_v68_apply, val_main_v65_apply, val_main_v67_apply, val_main_v66_apply, hb, Ideal.addf_def]
  refine congrArg (· + x15 (ix1 c)) (Finset.sum_congr rfl fun k _ => ?_)
  rw [hl k, hr k]

/-- THE HEAD at `(v, c)`: three dense layers over the embeddings, the first two rectified. -/
theorem val_main_v68_read (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (x10 : (⟨S128x64, .f32⟩ : BufTy).Contents (Elt Ideal))
    (x11 : (⟨S64, .f32⟩ : BufTy).Contents (Elt Ideal))
    (x12 : (⟨S64x32, .f32⟩ : BufTy).Contents (Elt Ideal))
    (x13 : (⟨S32, .f32⟩ : BufTy).Contents (Elt Ideal))
    (x14 : (⟨S32x10, .f32⟩ : BufTy).Contents (Elt Ideal))
    (x15 : (⟨S10, .f32⟩ : BufTy).Contents (Elt Ideal))
    (v : Fin 50000) (c : Fin 10) :
    val_main_v68 (F := Ideal) x0 x1 x2 x3 x4 x5 x6 x7 x8 x9 x10 x11 x12 x13 x14 x15 (ix2 v c)
      = (∑ k : Fin 32, max ((∑ j : Fin 64, max ((∑ i : Fin 128,
            val_main_v54 (F := Ideal) x0 x1 x2 x3 x4 x5 x6 x7 x8 x9 (ix2 v i) * x10 (ix2 i j)) + x11 (ix1 j)) 0
              * x12 (ix2 j k)) + x13 (ix1 k)) 0 * x14 (ix2 k c)) + x15 (ix1 c) := by
  rw [val_main_v68_read_v64]
  refine congrArg (· + x15 (ix1 c)) (Finset.sum_congr rfl fun k _ => ?_)
  rw [val_main_v64_read]
  refine congrArg (fun t => max (t + x13 (ix1 k)) 0 * x14 (ix2 k c)) (Finset.sum_congr rfl fun j _ => ?_)
  rw [val_main_v59_read]

/-! ## The clipped in-degree -/

/-- Both layers divide by the same clipped degree: the two stages are the same term. -/
theorem val_main_v45_eq_v17 (x2 : (⟨S800000, .i32⟩ : BufTy).Contents (Elt Ideal)) :
    val_main_v45 (F := Ideal) x2 = val_main_v17 (F := Ideal) x2 := rfl

/-- The clipped degree is the larger of one and the degree. -/
theorem val_main_v17_read (x2 : (⟨S800000, .i32⟩ : BufTy).Contents (Elt Ideal)) (i : S50000.Idx) :
    val_main_v17 (F := Ideal) x2 i = max (Ideal.ofBits .f32 0x3F800000#32) (val_main_v16 (F := Ideal) x2 i) := by
  rw [val_main_v17_apply, val_main_call0_v1_apply, val_main_call0_v0_apply, val_main_cst_3_apply, Ideal.maximumf_def,
    Ideal.ofBits_def]

/-- The degree of node `n`: the zero constant plus a one for every edge whose destination word is `n`. -/
theorem val_main_v16_read (x2 : (⟨S800000, .i32⟩ : BufTy).Contents (Elt Ideal)) (n : Fin 50000) :
    val_main_v16 (F := Ideal) x2 (ix1 n)
      = Ideal.ofBits .f32 0x00000000#32 + ∑ e : Fin 800000, if (x2 (ix1 e)).toInt = (n.val : ℤ)
          then Ideal.ofBits .f32 0x3F800000#32 else 0 := by
  unfold val_main_v16
  refine (Host.scatterAdd_elts_apply scatter_S50000_S800000x1_S800000_n_0_0_1 rfl rfl rfl rfl _ _ _ n).trans ?_
  refine congrArg₂ (· + ·) ?_ (Finset.sum_congr rfl fun e _ => ?_)
  · rw [val_main_v14_apply, val_main_cst_2_apply]; rfl
  · have h15 : val_main_v15 (F := Ideal) x2 (ix2 e 0) = x2 (ix1 e) := by
      rw [val_main_v15_apply]
      exact congrArg x2 (funext fun a => by match a with | ⟨0, _⟩ => rfl)
    have h13 : val_main_v13 (F := Ideal) (ix1 e) = Ideal.ofBits .f32 0x3F800000#32 := by
      rw [val_main_v13_apply, val_main_cst_1_apply]; rfl
    rw [h15, h13]

end Cert.ReferenceIdeal.RefRead

end
-- ==== Proof.Linear.lean ====
/-
  The one law that joins the two programs, on the extended reals.

  A node's layer-2 neighbour term is a weighted sum over its incoming edges, scaled by the reciprocal of its clipped
  in-degree, then projected by a matrix. The reference aggregates the 256-wide activations and projects afterwards:
      ∑ₖ ((0 + ∑ₑ [e lands] y e k · w e) · d) · a k.
  The kernel projects every node first and aggregates the 128-wide projections:
      (0 + ∑ₑ [e lands] (∑ⱼ y e j · a j) · w e) · d.
  Over the reals the two are equal by distributivity and exchanging the two finite sums. On the extended reals
  distributivity fails at the infinities, so the law is stated for entries that are real numbers; it is proved over the
  reals and carried across the coercion, which commutes with finite sums, products and the choice between a term and 0.
-/
import Mathlib.Data.EReal.Inv
import Mathlib.Algebra.BigOperators.Group.Finset.Basic
import Mathlib.Algebra.BigOperators.Ring.Finset
import Mathlib.Tactic.Ring

open scoped BigOperators

namespace Cert.Linear

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with the choice between a term and zero. -/
theorem coe_ite_zero (P : Prop) [Decidable P] (a : ℝ) :
    ((if P then a else 0 : ℝ) : EReal) = if P then (a : EReal) else 0 := by
  split_ifs <;> simp

/-- Over the reals: aggregate then project equals project then aggregate. -/
theorem agg_proj_real {E K : Type*} [Fintype E] [Fintype K] (P : E → Prop) [DecidablePred P]
    (y : E → K → ℝ) (a : K → ℝ) (w : E → ℝ) (d : ℝ) :
    (0 + ∑ e, if P e then (∑ j, y e j * a j) * w e else 0) * d
      = ∑ k, ((0 + ∑ e, if P e then y e k * w e else 0) * d) * a k := by
  simp only [zero_add, Finset.sum_mul]
  rw [Finset.sum_comm]
  refine Finset.sum_congr rfl fun e _ => ?_
  by_cases h : P e
  · simp only [if_pos h, Finset.sum_mul]
    exact Finset.sum_congr rfl fun k _ => by ring
  · simp only [if_neg h, zero_mul, Finset.sum_const_zero]

/-- The same on the extended reals, for real entries. -/
theorem agg_proj {E K : Type*} [Fintype E] [Fintype K] (P : E → Prop) [DecidablePred P]
    (y : E → K → EReal) (a : K → EReal) (w : E → EReal) (d : EReal)
    (hy : ∀ e k, ∃ r : ℝ, y e k = (r : EReal)) (ha : ∀ k, ∃ r : ℝ, a k = (r : EReal))
    (hw : ∀ e, ∃ r : ℝ, w e = (r : EReal)) (hd : ∃ r : ℝ, d = (r : EReal)) :
    (0 + ∑ e, if P e then (∑ j, y e j * a j) * w e else 0) * d
      = ∑ k, ((0 + ∑ e, if P e then y e k * w e else 0) * d) * a k := by
  choose yr hyr using hy
  choose ar har using ha
  choose wr hwr using hw
  obtain ⟨dr, rfl⟩ := hd
  have h := congrArg (fun x : ℝ => (x : EReal)) (agg_proj_real P yr ar wr dr)
  simp only [EReal.coe_mul, EReal.coe_add, EReal.coe_zero, coe_sum, coe_ite_zero] at h
  simp only [hyr, har, hwr]
  exact h

end Cert.Linear
-- ==== Proof.Bridge.lean ====
/-
  The mathematics that joins the two programs, over abstract arrays. The kernels' whole-array functions, fed operands
  that agree index by index with the reference's stages, reproduce the reference's layer-1 output, its embeddings and
  its head. Layer 2 is where the two programs differ in shape (project then aggregate, against aggregate then
  project); that step alone needs the entries to be real numbers.
-/
import proofs.«160259_j20469814132750_2_alg».proof.Proof.Spec
import proofs.«160259_j20469814132750_2_alg».proof.Proof.RefRead
import proofs.«160259_j20469814132750_2_alg».proof.Proof.Linear

noncomputable section

open scoped BigOperators

namespace Cert.Bridge

open Idealize.ShloMosaic Idealize.ShloMosaic.ValueIdx Cert.ReferenceIdeal Cert.ReferenceIdeal.Read Cert.ReferenceIdeal.RefRead

/-! ## Entries that are real numbers -/

/-- Zero is a real number. -/
theorem real_zero : ∃ r : ℝ, (0 : EReal) = (r : EReal) := ⟨0, rfl⟩

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The larger of a real and zero is a real. -/
theorem real_max_zero {x : EReal} (hx : ∃ r : ℝ, x = (r : EReal)) : ∃ r : ℝ, max x 0 = (r : EReal) := by
  rcases le_total x 0 with h | h
  · exact ⟨0, by rw [max_eq_right h]; rfl⟩
  · rw [max_eq_left h]; exact hx

/-- The choice between a real and zero is a real. -/
theorem real_ite_zero (P : Prop) [Decidable P] {x : EReal} (hx : ∃ r : ℝ, x = (r : EReal)) :
    ∃ r : ℝ, (if P then x else 0) = (r : EReal) := by
  split_ifs
  · exact hx
  · exact real_zero

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.Linear.coe_sum]; exact Finset.sum_congr rfl fun i _ => hg i⟩

/-- The reciprocal of EVERY extended real is a real: the reciprocal of either infinity is zero. -/
theorem real_inv (x : EReal) : ∃ r : ℝ, x⁻¹ = (r : EReal) := by
  induction x using EReal.rec with
  | bot => exact ⟨0, EReal.inv_bot⟩
  | coe a => exact ⟨a⁻¹, (EReal.coe_inv a).symm⟩
  | top => exact ⟨0, EReal.inv_top⟩

/-! ## The constant one, and division by a nonzero divisor -/

/-- The pattern 0x3F800000 is the number one. -/
theorem ofBits_one_f32 : Ideal.ofBits .f32 0x3F800000#32 = (1 : EReal) := by
  simp [Ideal.ofBits, Ideal.ieee]
  rw [← EReal.coe_mul, ← EReal.coe_one]
  exact congrArg _ (by norm_num)

/-- Off zero, the quotient is the product with the reciprocal. -/
theorem div_of_ne_zero (x : EReal) {y : EReal} (hy : y ≠ 0) : Ideal.div x y = x * y⁻¹ := by
  unfold Ideal.div
  rw [if_neg hy]

/-- Multiplying by the reciprocal of a nonzero divisor is dividing by it. -/
theorem mul_div_one (s : EReal) {cd : EReal} (h : cd ≠ 0) : s * Ideal.div 1 cd = Ideal.div s cd := by
  rw [div_of_ne_zero 1 h, div_of_ne_zero s h, one_mul]

/-! ## The clipped in-degree is positive -/

/-- The clipped degree is at least one, so it is positive (and not zero). -/
theorem clipped_degree_pos (x2 : (⟨S800000, .i32⟩ : BufTy).Contents (Elt Ideal)) (i : S50000.Idx) :
    (0 : EReal) < val_main_v17 (F := Ideal) x2 i := by
  rw [val_main_v17_read, ofBits_one_f32]
  exact lt_of_lt_of_le zero_lt_one (le_max_left _ _)

/-! ## Layer 1 -/

/-- LAYER 1: the kernel's whole-array function, fed the reference's aggregated sums, the reciprocal clipped degrees as
    a column and the bias as a row, is the reference's layer-1 output. -/
theorem act_eq (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (D : Cert.Spec.Mat 50000 1) (hD : ∀ n : Fin 50000, D (ix2 n 0) = Ideal.div (Ideal.ofBits .f32 0x3F800000#32) ((val_main_v17 (F := Ideal) x2) (ix1 n)))
    (B1 : Cert.Spec.Mat 1 256) (hB1 : ∀ j : Fin 256, B1 (ix2 0 j) = x6 (ix1 j)) :
    Cert.Spec.act x0 (val_main_v12 (F := Ideal) x0 x1 x2 x3) D x4 x5 B1 = (val_main_v27 (F := Ideal) x0 x1 x2 x3 x4 x5 x6) := by
  funext i
  obtain ⟨n, j, rfl⟩ : ∃ n j, i = ix2 n j := ⟨i 0, i 1, eq_ix2 i⟩
  rw [val_main_v27_read]
  show max (((∑ k : Fin 64, x0 (ix2 n k) * x4 (ix2 k j))
    + (∑ k : Fin 64, ((val_main_v12 (F := Ideal) x0 x1 x2 x3) (ix2 n k) * D (ix2 n 0)) * x5 (ix2 k j))) + B1 (ix2 0 j)) 0 = _
  rw [hB1 j, hD n, ofBits_one_f32]
  refine congrArg (fun t => max (((∑ k : Fin 64, x0 (ix2 n k) * x4 (ix2 k j)) + t) + x6 (ix1 j)) 0)
    (Finset.sum_congr rfl fun k _ => ?_)
  rw [mul_div_one _ (clipped_degree_pos x2 (ix1 n)).ne']

/-! ## Layer 1's output is real-valued -/

/-- Layer 1's aggregated sums are real numbers when the features and the edge weights are. -/
theorem S1_real (x0 : (⟨S50000x64, .f32⟩ : BufTy).Contents (Elt Ideal))
    (x1 x2 : (⟨S800000, .i32⟩ : BufTy).Contents (Elt Ideal)) (x3 : (⟨S800000, .f32⟩ : BufTy).Contents (Elt Ideal))
    (f0 : ∀ i, ∃ r : ℝ, x0 i = (r : EReal)) (f3 : ∀ i, ∃ r : ℝ, x3 i = (r : EReal)) (v : Fin 50000) (k : Fin 64) :
    ∃ r : ℝ, (val_main_v12 (F := Ideal) x0 x1 x2 x3) (ix2 v k) = (r : EReal) := by
  rw [val_main_v12_read, Ideal.ofBits_zero_f32]
  exact real_add real_zero (real_sum _ _ fun e => real_ite_zero _ (real_mul (f0 _) (f3 _)))

/-- Layer 1's output is a real number at every index when the features, the edge weights and the layer's parameters
    are. -/
theorem Y_real (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (f0 : ∀ i, ∃ r : ℝ, x0 i = (r : EReal)) (f3 : ∀ i, ∃ r : ℝ, x3 i = (r : EReal)) (f4 : ∀ i, ∃ r : ℝ, x4 i = (r : EReal)) (f5 : ∀ i, ∃ r : ℝ, x5 i = (r : EReal)) (f6 : ∀ i, ∃ r : ℝ, x6 i = (r : EReal)) (i : S50000x256.Idx) :
    ∃ r : ℝ, (val_main_v27 (F := Ideal) x0 x1 x2 x3 x4 x5 x6) i = (r : EReal) := by
  obtain ⟨n, j, rfl⟩ : ∃ n j, i = ix2 n j := ⟨i 0, i 1, eq_ix2 i⟩
  rw [val_main_v27_read]
  refine real_max_zero (real_add (real_add (real_sum _ _ fun k => real_mul (f0 _) (f4 _))
    (real_sum _ _ fun k => real_mul ?_ (f5 _))) (f6 _))
  rw [div_of_ne_zero _ (clipped_degree_pos x2 (ix1 n)).ne']
  exact real_mul (S1_real x0 x1 x2 x3 f0 f3 n k) (real_inv _)

/-! ## Layer 2 -/

/-- LAYER 2: the kernel aggregates the PROJECTED rows and scales by the reciprocal clipped degree; the reference
    aggregates the rows, divides, and projects afterwards. With real entries the two agree. -/
theorem emb_eq (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (D : Cert.Spec.Mat 50000 1) (hD : ∀ n : Fin 50000, D (ix2 n 0) = Ideal.div (Ideal.ofBits .f32 0x3F800000#32) ((val_main_v17 (F := Ideal) x2) (ix1 n)))
    (S2 : Cert.Spec.Mat 50000 128)
    (hS2 : ∀ (v : Fin 50000) (c : Fin 128), S2 (ix2 v c) = (Ideal.ofBits .f32 0x00000000#32) + ∑ e : Fin 800000,
      if (x2 (ix1 e)).toInt = (v.val : ℤ)
        then Cert.Spec.proj (val_main_v27 (F := Ideal) x0 x1 x2 x3 x4 x5 x6) x8 (ix2 (row (x1 (ix1 e))) c) * x3 (ix1 e) else 0)
    (B2 : Cert.Spec.Mat 1 128) (hB2 : ∀ c : Fin 128, B2 (ix2 0 c) = x9 (ix1 c))
    (f0 : ∀ i, ∃ r : ℝ, x0 i = (r : EReal)) (f3 : ∀ i, ∃ r : ℝ, x3 i = (r : EReal)) (f4 : ∀ i, ∃ r : ℝ, x4 i = (r : EReal)) (f5 : ∀ i, ∃ r : ℝ, x5 i = (r : EReal)) (f6 : ∀ i, ∃ r : ℝ, x6 i = (r : EReal)) (f8 : ∀ i, ∃ r : ℝ, x8 i = (r : EReal)) :
    Cert.Spec.emb (val_main_v27 (F := Ideal) x0 x1 x2 x3 x4 x5 x6) S2 D x7 B2 = (val_main_v54 (F := Ideal) x0 x1 x2 x3 x4 x5 x6 x7 x8 x9) := by
  funext i
  obtain ⟨v, c, rfl⟩ : ∃ v c, i = ix2 v c := ⟨i 0, i 1, eq_ix2 i⟩
  rw [val_main_v54_read]
  show ((∑ k : Fin 256, (val_main_v27 (F := Ideal) x0 x1 x2 x3 x4 x5 x6) (ix2 v k) * x7 (ix2 k c)) + S2 (ix2 v c) * D (ix2 v 0)) + B2 (ix2 0 c) = _
  rw [hB2 c]
  refine congrArg (fun t => ((∑ k : Fin 256, (val_main_v27 (F := Ideal) x0 x1 x2 x3 x4 x5 x6) (ix2 v k) * x7 (ix2 k c)) + t) + x9 (ix1 c)) ?_
  have hcd : (val_main_v17 (F := Ideal) x2) (ix1 v) ≠ 0 := (clipped_degree_pos x2 (ix1 v)).ne'
  rw [hS2 v c, hD v, ofBits_one_f32, div_of_ne_zero 1 hcd, one_mul, Ideal.ofBits_zero_f32, val_main_v45_eq_v17]
  have h := Cert.Linear.agg_proj (E := Fin 800000) (K := Fin 256) (fun e => (x2 (ix1 e)).toInt = (v.val : ℤ))
    (fun e k => (val_main_v27 (F := Ideal) x0 x1 x2 x3 x4 x5 x6) (ix2 (row (x1 (ix1 e))) k)) (fun k => x8 (ix2 k c)) (fun e => x3 (ix1 e))
    ((val_main_v17 (F := Ideal) x2) (ix1 v))⁻¹
    (fun e k => Y_real x0 x1 x2 x3 x4 x5 x6 f0 f3 f4 f5 f6 _) (fun k => f8 _) (fun e => f3 _) (real_inv _)
  refine h.trans (Finset.sum_congr rfl fun k _ => ?_)
  rw [div_of_ne_zero _ hcd, val_main_v40_read, Ideal.ofBits_zero_f32]

/-! ## The head -/

/-- THE HEAD: the kernel's three dense layers on the embeddings, the last padded to 128 columns, read at one of the
    ten real columns, is the reference's output. -/
theorem head_eq (x0 : (⟨S50000x64, .f32⟩ : BufTy).Contents (Elt Ideal))
    (x1 x2 : (⟨S800000, .i32⟩ : BufTy).Contents (Elt Ideal))
    (x3 : (⟨S800000, .f32⟩ : BufTy).Contents (Elt Ideal))
    (x4 x5 : (⟨S64x256, .f32⟩ : BufTy).Contents (Elt Ideal))
    (x6 : (⟨S256, .f32⟩ : BufTy).Contents (Elt Ideal))
    (x7 x8 : (⟨S256x128, .f32⟩ : BufTy).Contents (Elt Ideal))
    (x9 : (⟨S128, .f32⟩ : BufTy).Contents (Elt Ideal))
    (x10 : (⟨S128x64, .f32⟩ : BufTy).Contents (Elt Ideal))
    (x11 : (⟨S64, .f32⟩ : BufTy).Contents (Elt Ideal))
    (x12 : (⟨S64x32, .f32⟩ : BufTy).Contents (Elt Ideal))
    (x13 : (⟨S32, .f32⟩ : BufTy).Contents (Elt Ideal))
    (x14 : (⟨S32x10, .f32⟩ : BufTy).Contents (Elt Ideal))
    (x15 : (⟨S10, .f32⟩ : BufTy).Contents (Elt Ideal))
    (Bh1 : Cert.Spec.Mat 1 64) (hBh1 : ∀ j : Fin 64, Bh1 (ix2 0 j) = x11 (ix1 j))
    (Bh2 : Cert.Spec.Mat 1 32) (hBh2 : ∀ k : Fin 32, Bh2 (ix2 0 k) = x13 (ix1 k))
    (W3 : Cert.Spec.Mat 32 128) (hW3 : ∀ (k : Fin 32) (c : Fin 10), W3 (ix2 k ⟨c.val, by omega⟩) = x14 (ix2 k c))
    (B3 : Cert.Spec.Mat 1 128) (hB3 : ∀ c : Fin 10, B3 (ix2 0 ⟨c.val, by omega⟩) = x15 (ix1 c))
    (v : Fin 50000) (c : Fin 10) :
    Cert.Spec.head (val_main_v54 (F := Ideal) x0 x1 x2 x3 x4 x5 x6 x7 x8 x9) x10 Bh1 x12 Bh2 W3 B3 (ix2 v ⟨c.val, by omega⟩)
      = val_main_v68 (F := Ideal) x0 x1 x2 x3 x4 x5 x6 x7 x8 x9 x10 x11 x12 x13 x14 x15 (ix2 v c) := by
  rw [val_main_v68_read]
  show (∑ k : Fin 32, max ((∑ j : Fin 64, max ((∑ l : Fin 128, (val_main_v54 (F := Ideal) x0 x1 x2 x3 x4 x5 x6 x7 x8 x9) (ix2 v l) * x10 (ix2 l j)) + Bh1 (ix2 0 j)) 0
    * x12 (ix2 j k)) + Bh2 (ix2 0 k)) 0 * W3 (ix2 k ⟨c.val, by omega⟩)) + B3 (ix2 0 ⟨c.val, by omega⟩) = _
  rw [hB3 c]
  refine congrArg (· + x15 (ix1 c)) (Finset.sum_congr rfl fun k _ => ?_)
  rw [hW3 k c, hBh2 k]
  refine congrArg (fun t => max (t + x13 (ix1 k)) 0 * x14 (ix2 k c)) (Finset.sum_congr rfl fun j _ => ?_)
  rw [hBh1 j]

end Cert.Bridge

end
-- ==== Proof.Reads.lean ====
/-
  The kernel program's host operations between and around the two kernels, read at one index, at the ideal values:
  the reciprocal clipped degree as a column, the biases as rows, the last layer padded to 128 columns, and the
  logits' slice of the first ten columns.
-/
import proofs.«160259_j20469814132750_2_alg».proof.KernelIdeal
import proofs.«160259_j20469814132750_2_alg».proof.Proof.RefRead
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Reads

open Cert.KernelIdeal Idealize.ShloMosaic Idealize.ShloMosaic.TcCoe Idealize.SL.Sem Idealize.ShloMosaic.StableHlo
open Idealize.ShloMosaic.ValueIdx

variable [Facts]
open Facts₀ Facts

/-! ## The reciprocal of the clipped degree, as a column -/

/-- The column `[50000, 1]` cast from the quotient of the broadcast constant one by the clipped degrees reads, at
    `(n, 0)`, one divided by node `n`'s clipped degree. -/
theorem recip_col (cd : (⟨S50000, .f32⟩ : BufTy).Contents (Elt Ideal)) (n : Fin 50000) :
    shapeCast S50000x1 (Host.divf (F := Ideal)
        (broadcastInDim S50000 ![] bcast_S_S50000 (constant (F := Ideal) S_ .f32 0x3F800000#32)) cd)
      shapeCasts_S50000_S50000x1 (ix2 n 0)
      = Ideal.div (Ideal.ofBits .f32 0x3F800000#32) (cd (ix1 n)) := by
  refine (shapeCast_apply _ shapeCasts_S50000_S50000x1 (ix2 n 0) (ix1 n) ?_).trans ?_
  · rw [Shape.rowMajor_val_two, Shape.rowMajor_val_one]
    show n.val = n.val * 1 + 0
    omega
  · show FloatOps.hostDivf (broadcastInDim S50000 ![] bcast_S_S50000 (constant (F := Ideal) S_ .f32 0x3F800000#32) (ix1 n))
      (cd (ix1 n)) = _
    rw [Ideal.hostDivf_def, broadcastInDim_apply _ bcast_S_S50000 _ (ix1 n) ix0 (fun a => a.elim0)]
    rfl

/-! ## The biases, as rows -/

/-- Layer 1's bias cast to a row `[1, 256]` reads, at `(0, j)`, the bias at `j`. -/
theorem bias_row_256 (x : (⟨S256, .f32⟩ : BufTy).Contents (Elt Ideal)) (j : Fin 256) :
    shapeCast S1x256 x shapeCasts_S256_S1x256 (ix2 0 j) = x (ix1 j) :=
  shapeCast_a_1a_apply x shapeCasts_S256_S1x256 0 j

/-- Layer 2's bias cast to a row `[1, 128]`. -/
theorem bias_row_128 (x : (⟨S128, .f32⟩ : BufTy).Contents (Elt Ideal)) (j : Fin 128) :
    shapeCast S1x128 x shapeCasts_S128_S1x128 (ix2 0 j) = x (ix1 j) :=
  shapeCast_a_1a_apply x shapeCasts_S128_S1x128 0 j

/-- The head's first bias cast to a row `[1, 64]`. -/
theorem bias_row_64 (x : (⟨S64, .f32⟩ : BufTy).Contents (Elt Ideal)) (j : Fin 64) :
    shapeCast S1x64 x shapeCasts_S64_S1x64 (ix2 0 j) = x (ix1 j) :=
  shapeCast_a_1a_apply x shapeCasts_S64_S1x64 0 j

/-- The head's second bias cast to a row `[1, 32]`. -/
theorem bias_row_32 (x : (⟨S32, .f32⟩ : BufTy).Contents (Elt Ideal)) (j : Fin 32) :
    shapeCast S1x32 x shapeCasts_S32_S1x32 (ix2 0 j) = x (ix1 j) :=
  shapeCast_a_1a_apply x shapeCasts_S32_S1x32 0 j

/-! ## The last layer, padded with 118 columns -/

/-- The last layer's matrix padded on the right to 128 columns reads, at one of the first ten columns, the matrix there,
    whatever the padding value. -/
theorem pad_W3 (pv : (⟨S_, .f32⟩ : BufTy).Contents (Elt Ideal)) (x : (⟨S32x10, .f32⟩ : BufTy).Contents (Elt Ideal)) (k : Fin 32) (c : Fin 10) :
    (pad S32x128 ![0, 0] ![0, 118] ![0, 0] x pv pads_S32x10_S32x128_000_01180 h_S_) (ix2 k ⟨c.val, by omega⟩)
      = x (ix2 k c) :=
  pad_apply_of_inside _ _ _ x pv pads_S32x10_S32x128_000_01180 h_S_ _ (ix2 k c) (fun a => by
    match a with
    | ⟨0, _⟩ => show k.val = 0 + k.val * (0 + 1); omega
    | ⟨1, _⟩ => show c.val = 0 + c.val * (0 + 1); omega)

/-- The last layer's bias, cast to a row and padded on the right to 128 columns, reads, at one of the first ten columns,
    the bias there, whatever the padding value. -/
theorem pad_B3 (pv : (⟨S_, .f32⟩ : BufTy).Contents (Elt Ideal)) (x : (⟨S10, .f32⟩ : BufTy).Contents (Elt Ideal)) (c : Fin 10) :
    (pad S1x128 ![0, 0] ![0, 118] ![0, 0] (shapeCast S1x10 x shapeCasts_S10_S1x10) pv pads_S1x10_S1x128_000_01180 h_S_)
        (ix2 0 ⟨c.val, by omega⟩)
      = x (ix1 c) :=
  (pad_apply_of_inside _ _ _ (shapeCast S1x10 x shapeCasts_S10_S1x10) pv pads_S1x10_S1x128_000_01180 h_S_ _ (ix2 0 c)
    (fun a => by
      match a with
      | ⟨0, _⟩ => show 0 = 0 + 0 * (0 + 1); omega
      | ⟨1, _⟩ => show c.val = 0 + c.val * (0 + 1); omega)).trans
    (shapeCast_a_1a_apply x shapeCasts_S10_S1x10 0 c)

/-! ## The logits: the first ten columns -/

/-- The slice of the first ten columns reads, at `(v, c)`, the array at `(v, c)`. -/
theorem logits_slice (A : (⟨S50000x128, .f32⟩ : BufTy).Contents (Elt Ideal)) (v : Fin 50000) (c : Fin 10) :
    extractStridedSlice S50000x10 ![0, 0] A slices_S50000x128_S50000x10_0_0 (ix2 v c) = A (ix2 v ⟨c.val, by omega⟩) :=
  extractStridedSlice_apply _ A slices_S50000x128_S50000x10_0_0 (ix2 v c) (ix2 v ⟨c.val, by omega⟩) (fun a => by
    match a with
    | ⟨0, _⟩ => show v.val = 0 + v.val; omega
    | ⟨1, _⟩ => show c.val = 0 + c.val; omega)

end Cert.KernelIdeal.Reads

end
-- ==== Proof.ReadsAgg.lean ====
/-
  Between the two kernels the kernel program aggregates the first kernel's PROJECTED rows along the edges. Read at one
  index, at the ideal values, the result is the reference's aggregation formula on the 128-wide projected rows: the
  same gather / weigh / scatter-add lemma as the reference's two aggregations, at another column count.
-/
import proofs.«160259_j20469814132750_2_alg».proof.KernelIdeal
import proofs.«160259_j20469814132750_2_alg».proof.Proof.RefRead
import proofs.«160259_j20469814132750_2_alg».proof.Proof.EntryTwo
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Reads

open Cert.KernelIdeal Idealize.ShloMosaic Idealize.ShloMosaic.TcCoe Idealize.SL.Sem Idealize.ShloMosaic.StableHlo
open Idealize.ShloMosaic.ValueIdx
open Facts₀ Facts

/-! ## The aggregation of the projected rows along the edges -/

/-- The source words as the gather receives them: the broadcast of the selected word to a column reads, at `(e, 0)`,
    the shifted source word of edge `e`. -/
theorem src_word (a1 : (⟨S800000, .i32⟩ : BufTy).Contents (Elt Ideal)) (e : Fin 800000) :
    broadcastInDim S800000x1 ![0] bcast_S800000_S800000x1_0
        (select (cmpi .slt a1 (broadcastInDim S800000 ![] bcast_S_S800000 (constantI S_ 32 0#32)))
          (addi a1 (broadcastInDim S800000 ![] bcast_S_S800000 (constantI S_ 32 50000#32))) a1) (ix2 e 0)
      = Cert.ReferenceIdeal.RefRead.rowWord (a1 (ix1 e)) := by
  refine (broadcastInDim_apply _ bcast_S800000_S800000x1_0 _ (ix2 e 0) (ix1 e) (fun a => match a with
      | ⟨0, _⟩ => by show e.val = if (800000 : Nat) = 1 then 0 else e.val; rw [if_neg (by decide)])).trans ?_
  show Scalar.select (IntOp.cmpi .slt (a1 (ix1 e)) (broadcastInDim S800000 ![] bcast_S_S800000 (constantI S_ 32 0#32) (ix1 e)))
    (IntOp.addi (a1 (ix1 e)) (broadcastInDim S800000 ![] bcast_S_S800000 (constantI S_ 32 50000#32) (ix1 e))) (a1 (ix1 e)) = _
  rw [broadcastInDim_apply _ bcast_S_S800000 (constantI S_ 32 0#32) (ix1 e) ix0 (fun a => a.elim0),
    broadcastInDim_apply _ bcast_S_S800000 (constantI S_ 32 50000#32) (ix1 e) ix0 (fun a => a.elim0)]
  rfl

/-- THE AGGREGATED PROJECTED ROWS at `(v, c)`: the zero constant plus the sum over the edges into `v` of the array at
    the edge's source row, column `c`, times the edge weight. -/
theorem aggProj_apply (Zm : (⟨S50000x128, .f32⟩ : BufTy).Contents (Elt Ideal)) (a1 a2 : (⟨S800000, .i32⟩ : BufTy).Contents (Elt Ideal))
    (a3 : (⟨S800000, .f32⟩ : BufTy).Contents (Elt Ideal)) (v : Fin 50000) (c : Fin 128) :
    Cert.KernelIdeal.Entry.aggProj Zm a1 a2 a3 (ix2 v c)
      = Ideal.ofBits .f32 0x00000000#32 + ∑ e : Fin 800000, if (a2 (ix1 e)).toInt = (v.val : ℤ)
          then Zm (ix2 (Cert.ReferenceIdeal.RefRead.row (a1 (ix1 e))) c) * a3 (ix1 e) else 0 := by
  unfold Cert.KernelIdeal.Entry.aggProj
  refine (Cert.ReferenceIdeal.RefRead.gatherMulScatter_apply (by decide)
    gather_S50000x128_S800000x1_S800000x128_1_0_n_n_0_1_1128 rfl rfl rfl rfl rfl rfl rfl
    scatter_S50000x128_S800000x1_S800000x128_1_0_0_1 rfl rfl rfl rfl _ Zm _ _ _ v c).trans ?_
  refine congrArg₂ (· + ·) ?_ (Finset.sum_congr rfl fun e _ => ?_)
  · rw [broadcastInDim_apply _ bcast_S_S50000x128 _ (ix2 v c) ix0 (fun a => a.elim0)]
    rfl
  · have hd : broadcastInDim S800000x1 ![0] bcast_S800000_S800000x1_0 a2 (ix2 e 0) = a2 (ix1 e) :=
      broadcastInDim_apply _ bcast_S800000_S800000x1_0 a2 (ix2 e 0) (ix1 e) (fun a => match a with
      | ⟨0, _⟩ => by show e.val = if (800000 : Nat) = 1 then 0 else e.val; rw [if_neg (by decide)])
    have hw : broadcastInDim S800000x128 ![0, 1] bcast_S800000x1_S800000x128_0_1
        (broadcastInDim S800000x1 ![0] bcast_S800000_S800000x1_0 a3) (ix2 e c) = a3 (ix1 e) :=
      (broadcastInDim_apply _ bcast_S800000x1_S800000x128_0_1 _ (ix2 e c) (ix2 e 0) (fun a => match a with
        | ⟨0, _⟩ => by show e.val = if (800000 : Nat) = 1 then 0 else e.val; rw [if_neg (by decide)]
        | ⟨1, _⟩ => by show 0 = if (1 : Nat) = 1 then 0 else c.val; rw [if_pos rfl])).trans
      (broadcastInDim_apply _ bcast_S800000_S800000x1_0 a3 (ix2 e 0) (ix1 e) (fun a => match a with
      | ⟨0, _⟩ => by show e.val = if (800000 : Nat) = 1 then 0 else e.val; rw [if_neg (by decide)]))
    rw [hd, hw, Cert.ReferenceIdeal.RefRead.row_of_word (src_word a1 e)]

end Cert.KernelIdeal.Reads

end
-- ==== Proof.Finite.lean ====
/-
  From the certificate's precondition to "these argument arrays hold real numbers". The precondition says that the
  printed predicate finite_inputs, evaluated on the sixteen argument arrays of the launch memory, is the i1 word 1 on
  every device. The predicate is the conjunction of fourteen tests "every entry has |x| < +∞", one per float argument, each a
  reduction by "and" over every axis of the elementwise comparison.
  Read at the ideal instance (floats are extended reals, |x| is max x (-x), the pattern 0x7F800000 is ⊤) an entry
  with |x| < ⊤ is neither ⊥ nor ⊤, hence the image of a real number.
-/
import proofs.«160259_j20469814132750_2_alg».proof.Defs
import proofs.«160259_j20469814132750_2_alg».proof.Proof.Gen.Pre_finite_inputs
import Idealize.ShloMosaic.Lib.ReduceAll
import Idealize.ShloMosaic.Lib.ValueIdx

noncomputable section

namespace Cert.KernelIdeal.Fin

open Idealize.ShloMosaic Idealize.SL.Sem

variable [hPre : Cert.Pre_finite_inputs.Facts]

/-- The rank-0 result shape has one index. -/
instance subsingleton_S_ : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- An extended real whose absolute value max x (-x) is strictly below +∞ is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- "Every entry has |x| < +∞" read back at one index: when the reduction by "and" of the elementwise
    comparison |x| < +∞ over every axis is 1, the entry of x at any index is a real number. -/
theorem real_of_all {s : Shape} {axes : List (Fin s.rank)} (x : FVec Ideal s .f32)
    (b : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] b (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- The precondition decoded: the printed predicate is the conjunction (a left-nested chain of "and"s) of one
    test "every entry has |x| < +∞" per float argument; when it is 1 every one of the fourteen reductions is 1, and so every
    entry of each of the six arrays below is a real number. -/
theorem decode
    (a0 : FVec Ideal Cert.Pre_finite_inputs.S50000x64 .f32) (a1 a2 : IVec Cert.Pre_finite_inputs.S800000 32) (a3 : FVec Ideal Cert.Pre_finite_inputs.S800000 .f32)
    (a4 a5 : FVec Ideal Cert.Pre_finite_inputs.S64x256 .f32) (a6 : FVec Ideal Cert.Pre_finite_inputs.S256 .f32) (a7 a8 : FVec Ideal Cert.Pre_finite_inputs.S256x128 .f32)
    (a9 : FVec Ideal Cert.Pre_finite_inputs.S128 .f32) (a10 : FVec Ideal Cert.Pre_finite_inputs.S128x64 .f32) (a11 : FVec Ideal Cert.Pre_finite_inputs.S64 .f32)
    (a12 : FVec Ideal Cert.Pre_finite_inputs.S64x32 .f32) (a13 : FVec Ideal Cert.Pre_finite_inputs.S32 .f32) (a14 : FVec Ideal Cert.Pre_finite_inputs.S32x10 .f32)
    (a15 : FVec Ideal Cert.Pre_finite_inputs.S10 .f32)
    (h : Cert.Pre_finite_inputs.fn (F := Ideal) a0 a1 a2 a3 a4 a5 a6 a7 a8 a9 a10 a11 a12 a13 a14 a15 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a8 i = (r : EReal)) := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4,
    Idealize.ShloMosaic.andi] at e
  simp only [IntOp.andi_eq_one] at e
  obtain ⟨⟨⟨⟨⟨⟨⟨⟨⟨⟨⟨⟨⟨e0, e3⟩, e4⟩, e5⟩, e6⟩, e7⟩, e8⟩, e9⟩, e10⟩, e11⟩, e12⟩, e13⟩, e14⟩, e15⟩ := e
  exact ⟨real_of_all a0 _ _ _ e0, real_of_all a3 _ _ _ e3, real_of_all a4 _ _ _ e4,
    real_of_all a5 _ _ _ e5, real_of_all a6 _ _ _ e6, real_of_all a8 _ _ _ e8⟩

/-- The decoding at the sixteen argument arrays of a memory that satisfies the precondition, on device c. -/
theorem decoded (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg8) i = (r : EReal)) :=
  decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (h c)

/-- Under the precondition every entry of argument 0 (f32[50000, 64]) is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x64.Idx) :
    ∃ r : ℝ, m ((c.tc : Thread Cert.KernelIdeal.nD Cert.KernelIdeal.τ).loc Cert.KernelIdeal.main_arg0) i = (r : EReal) :=
  (decoded m h c).1 i

/-- Under the precondition every entry of argument 3 (f32[800000]) is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S800000.Idx) :
    ∃ r : ℝ, m ((c.tc : Thread Cert.KernelIdeal.nD Cert.KernelIdeal.τ).loc Cert.KernelIdeal.main_arg3) i = (r : EReal) :=
  (decoded m h c).2.1 i

/-- Under the precondition every entry of argument 4 (f32[64, 256]) is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x256.Idx) :
    ∃ r : ℝ, m ((c.tc : Thread Cert.KernelIdeal.nD Cert.KernelIdeal.τ).loc Cert.KernelIdeal.main_arg4) i = (r : EReal) :=
  (decoded m h c).2.2.1 i

/-- Under the precondition every entry of argument 5 (f32[64, 256]) is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x256.Idx) :
    ∃ r : ℝ, m ((c.tc : Thread Cert.KernelIdeal.nD Cert.KernelIdeal.τ).loc Cert.KernelIdeal.main_arg5) i = (r : EReal) :=
  (decoded m h c).2.2.2.1 i

/-- Under the precondition every entry of argument 6 (f32[256]) is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256.Idx) :
    ∃ r : ℝ, m ((c.tc : Thread Cert.KernelIdeal.nD Cert.KernelIdeal.τ).loc Cert.KernelIdeal.main_arg6) i = (r : EReal) :=
  (decoded m h c).2.2.2.2.1 i

/-- Under the precondition every entry of argument 8 (f32[256, 128]) is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x128.Idx) :
    ∃ r : ℝ, m ((c.tc : Thread Cert.KernelIdeal.nD Cert.KernelIdeal.τ).loc Cert.KernelIdeal.main_arg8) i = (r : EReal) :=
  (decoded m h c).2.2.2.2.2 i

end Cert.KernelIdeal.Fin

end
-- ==== Proof.KernelValue.lean ====
/-
  The idealized kernel's two results as the reference's own functions of the arguments.

  Layer 1. The first kernel's activations are `act` of the features, the aggregated messages, the reciprocal clipped
  in-degree (a column) and the layer's weights; the reference divides the aggregated messages by the clipped degree
  where the kernel multiplies by its reciprocal, the same thing since the clipped degree is at least one.
  Layer 2. The kernel projects every node's activations by the neighbour matrix BEFORE aggregating along the edges, the
  reference after; for real entries the two agree (the sums are finite and multiplication distributes), and the entries
  are real because the inputs are finite.
  Head. Three dense layers of the embeddings; the kernel's last layer is padded with zero columns that the final slice
  drops again.
-/
import proofs.«160259_j20469814132750_2_alg».proof.Proof.KernelRun
import proofs.«160259_j20469814132750_2_alg».proof.Proof.EntryTwo
import proofs.«160259_j20469814132750_2_alg».proof.Proof.RegionOne
import proofs.«160259_j20469814132750_2_alg».proof.Proof.RegionTwo
import proofs.«160259_j20469814132750_2_alg».proof.Proof.Bridge
import proofs.«160259_j20469814132750_2_alg».proof.Proof.Reads
import proofs.«160259_j20469814132750_2_alg».proof.Proof.ReadsAgg
import proofs.«160259_j20469814132750_2_alg».proof.Proof.Finite

set_option maxRecDepth 16384

noncomputable section

namespace Cert.KernelIdeal.Results

open Cert.KernelIdeal Cert.KernelIdeal.Gen Idealize.ShloMosaic Idealize.ShloMosaic.TcCoe Idealize.SL.Sem Idealize.ShloMosaic.StableHlo
open Idealize.ShloMosaic.ValueIdx

variable [hPre : Cert.Pre_finite_inputs.Facts]
variable (m : (ℓ : Loc nD τ sig) → Buf (Elt Ideal) ℓ) (ρ : Dev nD → PrngReg) (c : Dev nD)

/-- The first kernel's activations are the reference's layer-1 output. -/
theorem acts_eq : (dat0 (V3 m ρ) c).arrAt 7 cfg0.N = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [RegionOne.final7 (V3 m ρ) c,
    show V3 m ρ c main_arg0 = (m ((c : Thread nD τ).loc main_arg0)) from Entry.W3_arg0 m ρ c,
    show V3 m ρ c main_v19 = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) from Entry.W3_v19 m ρ c,
    show V3 m ρ c main_v21 = (shapeCast S50000x1 (Host.divf (F := Ideal) (broadcastInDim S50000 ![] bcast_S_S50000 (constant (F := Ideal) S_ .f32 0x3F800000#32)) (Cert.ReferenceIdeal.Read.val_main_v17 (F := Ideal) (m ((c : Thread nD τ).loc main_arg2)))) shapeCasts_S50000_S50000x1) from Entry.W3_v21 m ρ c,
    show V3 m ρ c main_arg4 = (m ((c : Thread nD τ).loc main_arg4)) from Entry.W3_arg4 m ρ c,
    show V3 m ρ c main_arg5 = (m ((c : Thread nD τ).loc main_arg5)) from Entry.W3_arg5 m ρ c,
    show V3 m ρ c main_v20 = shapeCast S1x256 (m ((c : Thread nD τ).loc main_arg6)) shapeCasts_S256_S1x256 from Entry.W3_v20 m ρ c]
  exact Cert.Bridge.act_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ (fun n => Reads.recip_col _ n) _ (fun j => Reads.bias_row_256 _ j)

/-- Their projection by the layer-2 neighbour matrix. -/
theorem proj_eq : (dat0 (V3 m ρ) c).arrAt 8 cfg0.N = Cert.Spec.proj (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8)) := by
  rw [RegionOne.final8 (V3 m ρ) c, ← RegionOne.final7 (V3 m ρ) c, acts_eq m ρ c,
    show V3 m ρ c main_arg8 = (m ((c : Thread nD τ).loc main_arg8)) from Entry.W3_arg8 m ρ c]

/-- The embeddings are the reference's. -/
theorem emb_eq (hpre : Cert.Pre_KernelIdeal m) : W11 m ρ c (Proc.devRef .tc main_v43_0) = (Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Entry.W11_v43_0 m ρ c, RegionTwo.final11 (V9 m ρ) c,
    show V9 m ρ c main_v22_0 = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) from (Entry.W9_v22_0 m ρ c).trans (acts_eq m ρ c),
    show V9 m ρ c main_v35 = (Entry.aggProj (Cert.Spec.proj (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8))) (m ((c : Thread nD τ).loc main_arg1)) (m ((c : Thread nD τ).loc main_arg2)) (m ((c : Thread nD τ).loc main_arg3))) from (Entry.W9_v35 m ρ c).trans (by rw [proj_eq m ρ c]),
    show V9 m ρ c main_v42 = (shapeCast S50000x1 (Host.divf (F := Ideal) (broadcastInDim S50000 ![] bcast_S_S50000 (constant (F := Ideal) S_ .f32 0x3F800000#32)) (Cert.ReferenceIdeal.Read.val_main_v17 (F := Ideal) (m ((c : Thread nD τ).loc main_arg2)))) shapeCasts_S50000_S50000x1) from Entry.W9_v42 m ρ c,
    show V9 m ρ c main_arg7 = (m ((c : Thread nD τ).loc main_arg7)) from Entry.W9_arg7 m ρ c,
    show V9 m ρ c main_v39 = shapeCast S1x128 (m ((c : Thread nD τ).loc main_arg9)) shapeCasts_S128_S1x128 from Entry.W9_v39 m ρ c]
  exact Cert.Bridge.emb_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ (fun n => Reads.recip_col _ n)
    _ (fun v k => Reads.aggProj_apply _ _ _ _ v k) _ (fun k => Reads.bias_row_128 _ k)
    (fun i => Cert.KernelIdeal.Fin.real_arg0 m hpre c i) (fun i => Cert.KernelIdeal.Fin.real_arg3 m hpre c i)
    (fun i => Cert.KernelIdeal.Fin.real_arg4 m hpre c i) (fun i => Cert.KernelIdeal.Fin.real_arg5 m hpre c i)
    (fun i => Cert.KernelIdeal.Fin.real_arg6 m hpre c i) (fun i => Cert.KernelIdeal.Fin.real_arg8 m hpre c i)

/-- The logits are the reference's. -/
theorem out_eq (hpre : Cert.Pre_KernelIdeal m) : W11 m ρ c (Proc.devRef .tc main_v44)
    = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Entry.W11_v44 m ρ c, RegionTwo.final12 (V9 m ρ) c, ← RegionTwo.final11 (V9 m ρ) c, ← Entry.W11_v43_0 m ρ c, emb_eq m ρ c hpre,
    show V9 m ρ c main_arg10 = (m ((c : Thread nD τ).loc main_arg10)) from Entry.W9_arg10 m ρ c,
    show V9 m ρ c main_v40 = shapeCast S1x64 (m ((c : Thread nD τ).loc main_arg11)) shapeCasts_S64_S1x64 from Entry.W9_v40 m ρ c,
    show V9 m ρ c main_arg12 = (m ((c : Thread nD τ).loc main_arg12)) from Entry.W9_arg12 m ρ c,
    show V9 m ρ c main_v41 = shapeCast S1x32 (m ((c : Thread nD τ).loc main_arg13)) shapeCasts_S32_S1x32 from Entry.W9_v41 m ρ c,
    show V9 m ρ c main_v36 = _ from Entry.W9_v36 m ρ c,
    show V9 m ρ c main_v38 = _ from Entry.W9_v38 m ρ c]
  funext i
  obtain ⟨v, k, rfl⟩ : ∃ (v : Fin 50000) (k : Fin 10), i = ix2 v k := ⟨i 0, i 1, eq_ix2 i⟩
  rw [Reads.logits_slice]
  exact Cert.Bridge.head_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) _ (fun j => Reads.bias_row_64 _ j) _ (fun j => Reads.bias_row_32 _ j)
    _ (fun j q => Reads.pad_W3 _ _ j q) _ (fun q => Reads.pad_B3 _ _ q) v k

end Cert.KernelIdeal.Results

end
-- ==== Proof.lean ====
/-
  The certificate of a two-layer mean-aggregation graph network with a three-layer dense head, as a pair of kernels
  around the edge aggregation, against its plain reference.

  Both programs compute, per node, the clipped in-degree and the layer-1 aggregated messages by the same operations.
  Layer 1: the kernel scales the aggregated messages by the reciprocal of the clipped degree where the reference divides
  by it — equal because the clipped degree is at least one. Layer 2: the kernel projects the activations by the
  neighbour matrix before aggregating along the edges, the reference after — equal for real entries by distributivity
  and exchanging two finite sums, and the entries are real because every float input is finite (the one use of the
  precondition). The head is the same three dense layers on equal embeddings; the kernel pads the last one with zero
  columns and slices them off. The three frames are the programs' own runs; the idealization rewrote nothing.
-/
import proofs.«160259_j20469814132750_2_alg».proof.Defs
import proofs.«160259_j20469814132750_2_alg».proof.Proof.Gen.Kernel
import proofs.«160259_j20469814132750_2_alg».proof.Proof.Gen.Kernel.Skeleton
import proofs.«160259_j20469814132750_2_alg».proof.Proof.Gen.Kernel.Launch
import proofs.«160259_j20469814132750_2_alg».proof.Proof.Gen.Kernel.Points
import proofs.«160259_j20469814132750_2_alg».proof.Proof.Gen.Kernel.Frame
import proofs.«160259_j20469814132750_2_alg».proof.Proof.Gen.KernelIdeal
import proofs.«160259_j20469814132750_2_alg».proof.Proof.Gen.KernelIdeal.Skeleton
import proofs.«160259_j20469814132750_2_alg».proof.Proof.Gen.KernelIdeal.Launch
import proofs.«160259_j20469814132750_2_alg».proof.Proof.Gen.KernelIdeal.Points
import proofs.«160259_j20469814132750_2_alg».proof.Proof.Gen.KernelIdeal.Frame
import proofs.«160259_j20469814132750_2_alg».proof.Proof.Gen.ReferenceIdeal
import proofs.«160259_j20469814132750_2_alg».proof.Proof.Gen.ReferenceIdeal.Run
import proofs.«160259_j20469814132750_2_alg».proof.Proof.Gen.ReferenceIdeal.Read
import proofs.«160259_j20469814132750_2_alg».proof.Proof.Gen.Pre_finite_inputs
import proofs.«160259_j20469814132750_2_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

set_option maxHeartbeats 1000000 in
/-- Both programs end with the reference's two functions of the arguments: the kernel by the value of its run, the
    reference by its own run, the arguments of the two memories agreeing. -/
theorem algebraic : Cert.algebraic_KernelIdeal_ReferenceIdeal := by
  intro m ρ m' ρ' hpre hagree
  refine ⟨fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Results.out_eq m ρ c hpre),
        (h c).2.1.trans (Cert.KernelIdeal.Results.emb_eq m ρ c hpre), (h c).2.2⟩)
      (Cert.KernelIdeal.Results.run (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15⟩ := hagree c
    refine ⟨(h c).1.trans ?_, (h c).2.1.trans ?_, (h c).2.2⟩
    · rw [Cert.ReferenceIdeal.Read.val_main_v68_eq, e0, e1, e2, e3, e4, e5, e6, e7, e8, e9, e10, e11, e12, e13, e14, e15]
    · refine (Cert.ReferenceIdeal.Read.val_main_v54_eq m' c).trans ?_
      simp only [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
